-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x64 : Shape := ⟨2, ![128, 64]⟩
abbrev S8192 : Shape := ⟨1, ![8192]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg4 : FVec F S8192x8192 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  main_v23

def fn {F : FTy → Type} [FloatOps F] (main_arg0 : FVec F S8192x128 .f32) (main_arg1 : FVec F S128x64 .f32) (main_arg2 : FVec F S8192 .f32) (main_arg3 : FVec F S8192x8192 .f32) (main_arg4 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_v13 main_v16
-- ==== Kernel.lean ====
abbrev S8192x128 : Shape := ⟨2, ![8192, 128]⟩
abbrev S128x64 : Shape := ⟨2, ![128, 64]⟩
abbrev S8192 : Shape := ⟨1, ![8192]⟩
abbrev S8192x8192 : Shape := ⟨2, ![8192, 8192]⟩
abbrev S8192x1 : Shape := ⟨2, ![8192, 1]⟩
abbrev S8192x64 : Shape := ⟨2, ![8192, 64]⟩
abbrev S1024x2048 : Shape := ⟨2, ![1024, 2048]⟩
abbrev S2048x128 : Shape := ⟨2, ![2048, 128]⟩
abbrev S1024x1 : Shape := ⟨2, ![1024, 1]⟩
abbrev S1024x64 : Shape := ⟨2, ![1024, 64]⟩
abbrev S2048x64 : Shape := ⟨2, ![2048, 64]⟩

abbrev nBuf : Space → Nat
  | .hbm => 8
  | .vmem => 17
  | .smem => 0
  | _ => 0

abbrev bufTy : (tb : Table) → Fin (tcTables nBuf tb) → BufTy
  | .hbm, ⟨0, _⟩ => ⟨S8192x128, .f32⟩
  | .hbm, ⟨1, _⟩ => ⟨S128x64, .f32⟩
  | .hbm, ⟨2, _⟩ => ⟨S8192, .f32⟩
  | .hbm, ⟨3, _⟩ => ⟨S8192x8192, .f32⟩
  | .hbm, ⟨4, _⟩ => ⟨S8192x8192, .f32⟩
  | .hbm, ⟨5, _⟩ => ⟨S8192x1, .f32⟩
  | .hbm, ⟨6, _⟩ => ⟨S8192x64, .f32⟩
  | .hbm, ⟨7, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S128x64, .f32⟩
  | .local _ .vmem, ⟨5, _⟩ => ⟨S1024x1, .f32⟩
  | .local _ .vmem, ⟨6, _⟩ => ⟨S1024x1, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x2048, .f32⟩
  | .local _ .vmem, ⟨11, _⟩ => ⟨S1024x2048, .f32⟩
  | .local _ .vmem, ⟨12, _⟩ => ⟨S2048x64, .f32⟩
  | .local _ .vmem, ⟨13, _⟩ => ⟨S2048x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S8192_S8192x1 : S8192.ShapeCasts S8192x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  dot_S2048x128_S128x64_S2048x64_1_0_0_1_n_n_wf : DotDims.WF S2048x128 S128x64 S2048x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .f32 = 32 ∨ (Rect.block (s := S8192x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg4) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg3) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S128x64 : Shape := ⟨2, ![128, 64]⟩
abbrev S8192 : Shape := ⟨1, ![8192]⟩
abbrev S8192x8192 : Shape := ⟨2, ![8192, 8192]⟩
abbrev S8192x64 : Shape := ⟨2, ![8192, 64]⟩
abbrev S1x8192 : Shape := ⟨2, ![1, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x64, .f32⟩
  | .hbm, ⟨2, _⟩ => ⟨S8192, .f32⟩
  | .hbm, ⟨3, _⟩ => ⟨S8192x8192, .f32⟩
  | .hbm, ⟨4, _⟩ => ⟨S8192x8192, .f32⟩
  | .hbm, ⟨5, _⟩ => ⟨S8192x64, .f32⟩
  | .hbm, ⟨6, _⟩ => ⟨S8192x64, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.K.R0Kit.lean ====
/-
  The first pallas_call (grid 8 × 4, point t = 4·i + k): what its body is run on and where.

  Window 0 is the 1024 × 2048 block (i, k) of the 8192 × 8192 matrix, window 1 the 2048 × 128 block (k, 0) of the
  features, window 2 the whole 128 × 64 weight matrix, window 3 the 1024 × 1 block (i, 0) of the filter column,
  window 4 the 1024 × 64 block (i, 0) of the result; a 1024 × 64 scratch buffer carries the partial sum from one
  point to the next. The body resets the scratch where k = 0 (t ≡ 0 mod 4), adds one product of blocks to it at
  every point, and stores the scaled scratch into window 4 where k = 3 (t ≡ 3 mod 4), the only points at which
  window 4 is written back; elsewhere window 4 is idle. An input window's buffer holds its block at every point,
  fetched there or not.
-/
import proofs.«164439_j68341519613981_2_alg».proof.Proof.Gen.Kernel.Launch
import proofs.«164439_j68341519613981_2_alg».proof.Proof.Gen.Kernel.Skeleton
import proofs.«164439_j68341519613981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (an unfetched input's
    block index has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- The reset condition (k = 0), as the body computes it from the second grid coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The store condition (k = 3). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where k ≠ 3 the result window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where k = 3 it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
/-- The scratch that carries the partial sum. -/
abbrev scM0 : Memref sig .tc .vmem S1024x64 .f32 := Memref.whole cc0_scratch0

/-- The core's other scoped buffers (the second call's staging and scratch), each whole at some contents: this call
    never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the call's body may use and need not describe, with the scratch singled out: the scratch at some contents,
    the other scoped buffers, the generator register at some state. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

end Cert.Kernel.Hand

end
-- ==== Proof.K.R0Runs.lean ====
/-
  The body of the first pallas_call run on whole buffers, one statement per way its two conditions fall.

  With A the 1024 × 2048 block of the big matrix, Fb the 2048 × 128 block of the features, Wm the weights, s the
  carried partial sum and f the 1024 × 1 block of the filter column:
  * k = 0: the scratch is set to zero and then to  0-splat + A·(Fb·Wm)  (the payload of the accumulating store read
    at the zero splat), nothing else is written;
  * k = 1, 2: the scratch goes from s to  s + A·(Fb·Wm);
  * k = 3: the same, and the result block is stored as (s + A·(Fb·Wm)) · f broadcast along the row.
  Every load and store is through the whole-buffer rectangle at offset zero, so a buffer's contents after the run are
  the last store's payload, and a load after a store reads that store's payload back.
-/
import proofs.«164439_j68341519613981_2_alg».proof.Proof.K.R0Kit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body: zero on both axes. -/
theorem zeros2 : (![0, 0] : Fin 2 → Nat) = fun _ => 0 := by funext a; fin_cases a <;> rfl

/-- After a list of stores whose LAST is through the whole rectangle at offset zero, the buffer reads as that store's
    payload, whatever it held and whatever the earlier stores were (stated over any shape). -/
theorem read_writes_head_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

set_option maxHeartbeats 2000000 in
/-- k = 1, 2 (neither condition holds): the partial sum `xs` becomes `xs + A·(Fb·Wm)`; the three inputs are handed back. -/
theorem run0_B (c : Dev nD) (E : Set ℕ) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole)
    (hc0 : ¬cond0_0 i) (hc1 : ¬cond0_1 i)
    (x0 : Vec F S1024x2048 .f32) (x1 : Vec F S2048x128 .f32) (x2 : Vec F S128x64 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg7 fullShare (k0_pay2 x1 x2 x0 xs)) -∗ K ⟨⟩))
      ⊢ wp frame (wpE (defs₀ (F := F)) Variants.none c none) E (cc0__stage2_fused_kernel i arg2 harg2 arg3 harg3 arg4 harg4 arg5 harg5 arg6 harg6 arg7 harg7) K := by
  simp only [cc0__stage2_fused_kernel_eq_skeleton]; unfold cc0__stage2_fused_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (read_writes_head_whole _ _ zeros2 _ _ _).trans ?_
  simp only [View.readAt_eq_ld, View.ld_unit_zero (S := S2048x128) zeros2, View.ld_unit_zero (S := S128x64) zeros2, View.ld_unit_zero (S := S1024x2048) zeros2, View.ld_unit_zero (S := S1024x64) zeros2, View.ld_unit_zero (S := S1024x1) zeros2]

set_option maxHeartbeats 2000000 in
/-- k = 0 (the reset holds, the store does not): whatever the scratch held, it becomes `0-splat + A·(Fb·Wm)`. -/
theorem run0_A (c : Dev nD) (E : Set ℕ) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole)
    (hc0 : cond0_0 i) (hc1 : ¬cond0_1 i)
    (x0 : Vec F S1024x2048 .f32) (x1 : Vec F S2048x128 .f32) (x2 : Vec F S128x64 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg7 fullShare (k0_pay2 x1 x2 x0 (k0_pay1 (F := F)))) -∗ K ⟨⟩))
      ⊢ wp frame (wpE (defs₀ (F := F)) Variants.none c none) E (cc0__stage2_fused_kernel i arg2 harg2 arg3 harg3 arg4 harg4 arg5 harg5 arg6 harg6 arg7 harg7) K := by
  simp only [cc0__stage2_fused_kernel_eq_skeleton]; unfold cc0__stage2_fused_kernel_skel
  unfold owns
  iintro ⟨⟨%f0, %hf0, H0⟩, ⟨%f1, %hf1, H1⟩, ⟨%f2, %hf2, H2⟩, ⟨%d, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  refine (read_writes_head_whole _ _ zeros2 _ _ _).trans ?_
  simp only [View.readAt_eq_ld, View.ld_unit_zero (S := S2048x128) zeros2, View.ld_unit_zero (S := S128x64) zeros2, View.ld_unit_zero (S := S1024x2048) zeros2, View.ld_unit_zero (S := S1024x64) zeros2, View.ld_unit_zero (S := S1024x1) zeros2, View.readCov_cons_toLoadRect]

set_option maxHeartbeats 2000000 in
/-- k = 3 (the store holds, the reset does not): the partial sum becomes `xs + A·(Fb·Wm)` and the result block, whatever
    it held, that sum times the filter column broadcast along each row; the four inputs are handed back. -/
theorem run0_C (c : Dev nD) (E : Set ℕ) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole)
    (hc0 : ¬cond0_0 i) (hc1 : cond0_1 i)
    (x0 : Vec F S1024x2048 .f32) (x1 : Vec F S2048x128 .f32) (x2 : Vec F S128x64 .f32) (x3 : Vec F S1024x1 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (k0_pay2 x1 x2 x0 xs) x3) ∗ owns (c : Thread nD τ) arg7 fullShare (k0_pay2 x1 x2 x0 xs)) -∗ K ⟨⟩))
      ⊢ wp frame (wpE (defs₀ (F := F)) Variants.none c none) E (cc0__stage2_fused_kernel i arg2 harg2 arg3 harg3 arg4 harg4 arg5 harg5 arg6 harg6 arg7 harg7) K := by
  simp only [cc0__stage2_fused_kernel_eq_skeleton]; unfold cc0__stage2_fused_kernel_skel
  unfold owns
  iintro ⟨⟨%f0, %hf0, H0⟩, ⟨%f1, %hf1, H1⟩, ⟨%f2, %hf2, H2⟩, ⟨%f3, %hf3, H3⟩, ⟨%d, %fo, -, HO⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    sl_unfold_run_names
    refine (read_writes_head_whole _ _ zeros2 _ _ _).trans ?_
    simp only [View.readAt_eq_ld, View.ld_unit_zero (S := S2048x128) zeros2, View.ld_unit_zero (S := S128x64) zeros2, View.ld_unit_zero (S := S1024x2048) zeros2, View.ld_unit_zero (S := S1024x64) zeros2, View.ld_unit_zero (S := S1024x1) zeros2, View.readCov_cons_toLoadRect]
  iexists _; isplitr
  swap; · iexact HS
  ipureintro
  sl_unfold_run_names
  refine (read_writes_head_whole _ _ zeros2 _ _ _).trans ?_
  simp only [View.readAt_eq_ld, View.ld_unit_zero (S := S2048x128) zeros2, View.ld_unit_zero (S := S128x64) zeros2, View.ld_unit_zero (S := S1024x2048) zeros2, View.ld_unit_zero (S := S1024x64) zeros2, View.ld_unit_zero (S := S1024x1) zeros2]

end Cert.Kernel.Hand

end
-- ==== Proof.K.R0Body.lean ====
/-
  The first pallas_call point by point: the partial sum its scratch carries, its proof data, and the body's
  obligation at every grid point.

  At point t = 4·i + k the scratch ends at  acc(t) = A_t·(Fb_t·Wm) added to the zero splat when k = 0 and to acc(t − 1)
  otherwise (A_t, Fb_t the blocks of the big matrix and of the features at t). Between two points the call's
  invariant holds the scratch at acc of the point before (at anything before the first point), the core's other
  scoped buffers and the generator register. Each input window's buffer holds its block; the result window's buffer
  is left as found where k ≠ 3 (idle there, not written back) and holds acc(t) times the filter block where k = 3.
-/
import proofs.«164439_j68341519613981_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The partial sum -/

/-- The scratch after the body at position `n`: the product of the point's blocks added to the zero splat at a point
    with k = 0, to what the point before left otherwise. -/
def accAt0 (c : Dev nD) : (n : ℕ) → n < cfg0.N → Vec F S1024x64 .f32
  | 0, hn => k0_pay2 (iblk0 V c 1 ⟨0, hn⟩) (iblk0 V c 2 ⟨0, hn⟩) (iblk0 V c 0 ⟨0, hn⟩) (k0_pay1 (F := F))
  | n + 1, hn =>
    if (n + 1) % 4 = 0 then k0_pay2 (iblk0 V c 1 ⟨n + 1, hn⟩) (iblk0 V c 2 ⟨n + 1, hn⟩) (iblk0 V c 0 ⟨n + 1, hn⟩) (k0_pay1 (F := F))
    else k0_pay2 (iblk0 V c 1 ⟨n + 1, hn⟩) (iblk0 V c 2 ⟨n + 1, hn⟩) (iblk0 V c 0 ⟨n + 1, hn⟩) (accAt0 c n (Nat.lt_of_succ_lt hn))

theorem accAt0_reset (c : Dev nD) (t : Fin cfg0.N) (h0 : t.val % 4 = 0) :
    accAt0 V c t.val t.isLt = k0_pay2 (iblk0 V c 1 t) (iblk0 V c 2 t) (iblk0 V c 0 t) (k0_pay1 (F := F)) := by
  obtain ⟨n, hn⟩ := t
  cases n with
  | zero => rfl
  | succ n => exact if_pos h0

theorem accAt0_step (c : Dev nD) (t : Fin cfg0.N) (h0 : ¬t.val % 4 = 0) :
    accAt0 V c t.val t.isLt = k0_pay2 (iblk0 V c 1 t) (iblk0 V c 2 t) (iblk0 V c 0 t)
      (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- Before position `n`: at the start what the call's body may use at anything; afterwards the scratch at the partial
    sum the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 (F := F) c) ∗ (∃ r, prngReg c r)) := by
  cases n with
  | zero => exact absurd rfl hz
  | succ n => rfl

/-! ## The proof data -/

/-- On core `c`: the arrays as the call finds them; after the body at point `t` each input's buffer at its block and the
    result's at the partial sum times the filter block; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (accAt0 V c t.val t.isLt) (iblk0 V c 3 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay3 (accAt0 V c t.val t.isLt) (iblk0 V c 3 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point: the closed forms of the two conditions say which of the three runs applies; the invariant
    hands the run the scratch (at the partial sum of the point before, or at anything where k = 0) and takes it back at
    this point's partial sum; the inputs come back as they were; the result window is stored where k = 3 and passes
    through untouched elsewhere; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 32 := lt_of_lt_of_eq t.isLt (show cfg0.N = 32 from N_0)
  by_cases h1 : t.val % 4 = 3
  · have h0 : ¬t.val % 4 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [accAt0_step V c t h0, PhiS0_castSucc V c t, PhiS0_pos V c _ _ hz]
    iintro ⟨⟨⟨HS, Hoth⟩, Hg⟩, Ho, ⟨%d0, H0⟩, ⟨%d1, H1⟩, ⟨%d2, H2⟩, ⟨%d3, H3⟩, ⟨%d4, H4⟩⟩
    iapply (run0_C c Set.univ (grid0.coords t) _ _ _ _ _ _ _ _ _ _ _ _ (fun h => h0 ((hcond0_0 t).mp h)) ((hcond0_1 t).mpr h1)
      (iblk0 V c 0 t) (iblk0 V c 1 t) (iblk0 V c 2 t) (iblk0 V c 3 t) (accAt0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (idleAt0_4 t (fun h => h1 ((hcond0_1 t).mp h))) (noFlush0_4 t (fun h => h1 ((hcond0_1 t).mp h)))]
    by_cases h0 : t.val % 4 = 0
    · rw [accAt0_reset V c t h0]
      by_cases hz : t.val = 0
      · rw [PhiS0_castSucc V c t, PhiS0_zero V c _ _ hz, PhiA0_eq]
        iintro ⟨⟨⟨HS, Hoth⟩, Hg⟩, Ho, ⟨%d0, H0⟩, ⟨%d1, H1⟩, ⟨%d2, H2⟩, ⟨%d3, H3⟩, H4⟩
        iapply (run0_A c Set.univ (grid0.coords t) _ _ _ _ _ _ _ _ _ _ _ _ ((hcond0_0 t).mpr h0) (fun h => h1 ((hcond0_1 t).mp h))
          (iblk0 V c 0 t) (iblk0 V c 1 t) (iblk0 V c 2 t) _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        iexact H4
      · rw [PhiS0_castSucc V c t, PhiS0_pos V c _ _ hz]
        iintro ⟨⟨⟨HS, Hoth⟩, Hg⟩, Ho, ⟨%d0, H0⟩, ⟨%d1, H1⟩, ⟨%d2, H2⟩, ⟨%d3, H3⟩, H4⟩
        iapply (run0_A c Set.univ (grid0.coords t) _ _ _ _ _ _ _ _ _ _ _ _ ((hcond0_0 t).mpr h0) (fun h => h1 ((hcond0_1 t).mp h))
          (iblk0 V c 0 t) (iblk0 V c 1 t) (iblk0 V c 2 t) _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [accAt0_step V c t h0, PhiS0_castSucc V c t, PhiS0_pos V c _ _ hz]
      iintro ⟨⟨⟨HS, Hoth⟩, Hg⟩, Ho, ⟨%d0, H0⟩, ⟨%d1, H1⟩, ⟨%d2, H2⟩, ⟨%d3, H3⟩, H4⟩
      iapply (run0_B c Set.univ (grid0.coords t) _ _ _ _ _ _ _ _ _ _ _ _ (fun h => h0 ((hcond0_0 t).mp h)) (fun h => h1 ((hcond0_1 t).mp h))
        (iblk0 V c 0 t) (iblk0 V c 1 t) (iblk0 V c 2 t) (accAt0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the call is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the same back: the partial sum in the scratch is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Hoth⟩, Hg⟩
  isplitl [HS Hoth]
  · isplitl [HS]; · iexists _; iexact HS
    iexact Hoth
  iexact Hg

end Cert.Kernel.Hand

end
-- ==== Proof.K.R1Kit.lean ====
/-
  The second pallas_call (grid 8 × 4, point t = 4·i + k): what its body is run on and where.

  Window 0 is the 1024 × 2048 block (i, k) of the first 8192 × 8192 matrix, window 1 the 2048 × 64 block (k, 0) of
  the first call's result, window 2 the 1024 × 64 block (i, 0) of the final result; a 1024 × 64 scratch buffer
  carries the partial sum from one point to the next. The body resets the scratch where k = 0 (t ≡ 0 mod 4), adds
  one product of blocks to it at every point, and copies the scratch into window 2 where k = 3 (t ≡ 3 mod 4), the
  only points at which window 2 is written back; elsewhere window 2 is idle. An input window's buffer holds its
  block at every point.
-/
import proofs.«164439_j68341519613981_2_alg».proof.Proof.Gen.Kernel.Launch
import proofs.«164439_j68341519613981_2_alg».proof.Proof.Gen.Kernel.Skeleton
import proofs.«164439_j68341519613981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point (both inputs are fetched at every point, and a
    block that were not fetched would not have moved), for any proof data over these arrays whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- The reset condition (k = 0), as the body computes it from the second grid coordinate. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The copy-out condition (k = 3). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where k ≠ 3 the result window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where k = 3 it is live. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
/-- The scratch that carries the partial sum. -/
abbrev scM1 : Memref sig .tc .vmem S1024x64 .f32 := Memref.whole cc1_scratch0

/-- The core's scoped buffers that are no staging buffer of this call, in the order the call lists them: the first
    call's nine staging buffers and its scratch, each whole at some contents (this call never touches them), and last
    this call's own scratch, about which `P` speaks. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ P)

/-- What the call's body may use and need not describe, with the scratch singled out: the other scoped buffers, the
    scratch at some contents, the generator register at some state. -/
theorem PhiA1_eq (c : Dev nD) :
    (Pipeline.ΦA spec1 c : sProp 𝕄)
      = iprop(scoped1 (F := F) c iprop(∃ d, owns (c : Thread nD τ) scM1 fullShare d) ∗ (∃ r, prngReg c r)) := by
  unfold Pipeline.ΦA scoped1; rw [scopedRest1_eq]; simp only [scM1, owns_whole]; try rfl

end Cert.Kernel.Hand

end
-- ==== Proof.K.R1Runs.lean ====
/-
  The body of the second pallas_call run on whole buffers, one statement per way its two conditions fall.

  With A the 1024 × 2048 block of the first big matrix, U the 2048 × 64 block of the first call's result and s the
  carried partial sum:
  * k = 0: the scratch is set to zero and then to  0-splat + A·U  (the payload of the accumulating store read at the
    zero splat), nothing else is written;
  * k = 1, 2: the scratch goes from s to  s + A·U;
  * k = 3: the same, and the result block is stored as what the scratch now holds,  s + A·U.
  Every load and store is through the whole-buffer rectangle at offset zero, so a buffer's contents after the run are
  the last store's payload, and a load after a store reads that store's payload back.
-/
import proofs.«164439_j68341519613981_2_alg».proof.Proof.K.R1Kit
import proofs.«164439_j68341519613981_2_alg».proof.Proof.K.R0Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 1, 2 (neither condition holds): the partial sum `xs` becomes `xs + A·U`; the two inputs are handed back. -/
theorem run1_B (c : Dev nD) (E : Set ℕ) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole)
    (hc0 : ¬cond1_0 i) (hc1 : ¬cond1_1 i)
    (x0 : Vec F S1024x2048 .f32) (x1 : Vec F S2048x64 .f32) (xs : Vec F S1024x64 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k1_pay2 x0 x1 xs)) -∗ K ⟨⟩))
      ⊢ wp frame (wpE (defs₀ (F := F)) Variants.none c none) E (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  refine (read_writes_head_whole _ _ zeros2 _ _ _).trans ?_
  simp only [View.readAt_eq_ld, View.ld_unit_zero (S := S1024x2048) zeros2, View.ld_unit_zero (S := S2048x64) zeros2, View.ld_unit_zero (S := S1024x64) zeros2]

set_option maxHeartbeats 2000000 in
/-- k = 0 (the reset holds, the copy-out does not): whatever the scratch held, it becomes `0-splat + A·U`. -/
theorem run1_A (c : Dev nD) (E : Set ℕ) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole)
    (hc0 : cond1_0 i) (hc1 : ¬cond1_1 i)
    (x0 : Vec F S1024x2048 .f32) (x1 : Vec F S2048x64 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k1_pay2 x0 x1 (k1_pay1 (F := F)))) -∗ K ⟨⟩))
      ⊢ wp frame (wpE (defs₀ (F := F)) Variants.none c none) E (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (read_writes_head_whole _ _ zeros2 _ _ _).trans ?_
  simp only [View.readAt_eq_ld, View.ld_unit_zero (S := S1024x2048) zeros2, View.ld_unit_zero (S := S2048x64) zeros2, View.ld_unit_zero (S := S1024x64) zeros2, View.readCov_cons_toLoadRect]

set_option maxHeartbeats 2000000 in
/-- k = 3 (the copy-out holds, the reset does not): the partial sum becomes `xs + A·U` and the result block, whatever it
    held, the same (the scratch read back after its store); the two inputs are handed back. -/
theorem run1_C (c : Dev nD) (E : Set ℕ) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole)
    (hc0 : ¬cond1_0 i) (hc1 : cond1_1 i)
    (x0 : Vec F S1024x2048 .f32) (x1 : Vec F S2048x64 .f32) (xs : Vec F S1024x64 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%d, %fo, -, HO⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    refine (read_writes_head_whole _ _ zeros2 _ _ _).trans ?_
    simp only [View.readAt_eq_ld, View.ld_unit_zero (S := S1024x2048) zeros2, View.ld_unit_zero (S := S2048x64) zeros2, View.ld_unit_zero (S := S1024x64) zeros2, View.readCov_cons_toLoadRect]
  iexists _; isplitr
  swap; · iexact HS
  ipureintro
  sl_unfold_run_names
  refine (read_writes_head_whole _ _ zeros2 _ _ _).trans ?_
  simp only [View.readAt_eq_ld, View.ld_unit_zero (S := S1024x2048) zeros2, View.ld_unit_zero (S := S2048x64) zeros2, View.ld_unit_zero (S := S1024x64) zeros2]

end Cert.Kernel.Hand

end
-- ==== Proof.K.R1Body.lean ====
/-
  The second pallas_call point by point: the partial sum its scratch carries, its proof data, and the body's
  obligation at every grid point.

  At point t = 4·i + k the scratch ends at  acc(t) = A_t·U_t added to the zero splat when k = 0 and to acc(t − 1)
  otherwise (A_t, U_t the blocks of the first big matrix and of the first call's result at t). Between two points
  the call's invariant holds the core's other scoped buffers, the scratch at acc of the point before (at anything
  before the first point) and the generator register. Each input window's buffer holds its block; the result
  window's buffer is left as found where k ≠ 3 (idle there, not written back) and holds acc(t) where k = 3.
-/
import proofs.«164439_j68341519613981_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The partial sum -/

/-- The scratch after the body at position `n`: the product of the point's blocks added to the zero splat at a point
    with k = 0, to what the point before left otherwise. -/
def accAt1 (c : Dev nD) : (n : ℕ) → n < cfg1.N → Vec F S1024x64 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_reset (c : Dev nD) (t : Fin cfg1.N) (h0 : t.val % 4 = 0) :
    accAt1 V c t.val t.isLt = k1_pay2 (iblk1 V c 0 t) (iblk1 V c 1 t) (k1_pay1 (F := F)) := by
  obtain ⟨n, hn⟩ := t
  cases n with
  | zero => rfl
  | succ n => exact if_pos h0

theorem accAt1_step (c : Dev nD) (t : Fin cfg1.N) (h0 : ¬t.val % 4 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- Before position `n`: at the start what the call's body may use at anything; afterwards the other scoped buffers at
    anything, the scratch at the partial sum the point before left, the generator register at some state. -/
def PhiS1 (c : Dev nD) : (n : ℕ) → n ≤ cfg1.N → sProp 𝕄
  | 0, _ => Pipeline.ΦA spec1 c
  | n + 1, hn => iprop(scoped1 (F := F) c (owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1 (F := F) c (owns (c : Thread nD τ) scM1 fullShare (accAt1 V c n hn)) ∗ (∃ r, prngReg c r)) := rfl
theorem PhiS1_pos (c : Dev nD) (n : ℕ) (h : n ≤ cfg1.N) (hz : n ≠ 0) :
    PhiS1 V c n h = iprop(scoped1 (F := F) c (owns (c : Thread nD τ) scM1 fullShare (accAt1 V c (n - 1) (by omega))) ∗ (∃ r, prngReg c r)) := by
  cases n with
  | zero => exact absurd rfl hz
  | succ n => rfl

/-! ## The proof data -/

/-- On core `c`: the arrays as the call finds them; after the body at point `t` each input's buffer at its block and the
    result's at the partial sum; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's obligation at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4800000 in
/-- The body at any point: the closed forms of the two conditions say which of the three runs applies; the invariant
    hands the run the scratch (at the partial sum of the point before, or at anything where k = 0) and takes it back at
    this point's partial sum; the inputs come back as they were; the result window receives the partial sum where k = 3
    and passes through untouched elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 32 := lt_of_lt_of_eq t.isLt (show cfg1.N = 32 from N_1)
  by_cases h1 : t.val % 4 = 3
  · have h0 : ¬t.val % 4 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [accAt1_step V c t h0, PhiS1_castSucc V c t, PhiS1_pos V c _ _ hz]
    unfold scoped1
    iintro ⟨⟨⟨Hq0, Hq1, Hq2, Hq3, Hq4, Hq5, Hq6, Hq7, Hq8, Hq9, HS⟩, Hg⟩, Ho, ⟨%d0, H0⟩, ⟨%d1, H1⟩, ⟨%d2, H2⟩⟩
    iapply (run1_C c Set.univ (grid1.coords t) _ _ _ _ _ _ _ _ (fun h => h0 ((hcond1_0 t).mp h)) ((hcond1_1 t).mpr h1)
      (iblk1 V c 0 t) (iblk1 V c 1 t) (accAt1 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [Hq0 Hq1 Hq2 Hq3 Hq4 Hq5 Hq6 Hq7 Hq8 Hq9 HS Hg]
    · isplitl [Hq0 Hq1 Hq2 Hq3 Hq4 Hq5 Hq6 Hq7 Hq8 Hq9 HS]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        iexact HS
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [accAt1_reset V c t h0]
      by_cases hz : t.val = 0
      · rw [PhiS1_castSucc V c t, PhiS1_zero V c _ _ hz, PhiA1_eq]
        unfold scoped1
        iintro ⟨⟨⟨Hq0, Hq1, Hq2, Hq3, Hq4, Hq5, Hq6, Hq7, Hq8, Hq9, HS⟩, Hg⟩, Ho, ⟨%d0, H0⟩, ⟨%d1, H1⟩, H2⟩
        iapply (run1_A c Set.univ (grid1.coords t) _ _ _ _ _ _ _ _ ((hcond1_0 t).mpr h0) (fun h => h1 ((hcond1_1 t).mp h))
          (iblk1 V c 0 t) (iblk1 V c 1 t) _)
        isplitl [H0]; · iexact H0
        isplitl [H1]; · iexact H1
        isplitl [HS]; · iexact HS
        iintro ⟨H0, H1, HS⟩
        isplitl [Hq0 Hq1 Hq2 Hq3 Hq4 Hq5 Hq6 Hq7 Hq8 Hq9 HS Hg]
        · isplitl [Hq0 Hq1 Hq2 Hq3 Hq4 Hq5 Hq6 Hq7 Hq8 Hq9 HS]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            iexact HS
          iexact Hg
        isplitl [Ho]; · iexact Ho
        isplitl [H0]; · iexact H0
        isplitl [H1]; · iexact H1
        iexact H2
      · rw [PhiS1_castSucc V c t, PhiS1_pos V c _ _ hz]
        unfold scoped1
        iintro ⟨⟨⟨Hq0, Hq1, Hq2, Hq3, Hq4, Hq5, Hq6, Hq7, Hq8, Hq9, HS⟩, Hg⟩, Ho, ⟨%d0, H0⟩, ⟨%d1, H1⟩, H2⟩
        iapply (run1_A c Set.univ (grid1.coords t) _ _ _ _ _ _ _ _ ((hcond1_0 t).mpr h0) (fun h => h1 ((hcond1_1 t).mp h))
          (iblk1 V c 0 t) (iblk1 V c 1 t) _)
        isplitl [H0]; · iexact H0
        isplitl [H1]; · iexact H1
        isplitl [HS]; · iexists _; iexact HS
        iintro ⟨H0, H1, HS⟩
        isplitl [Hq0 Hq1 Hq2 Hq3 Hq4 Hq5 Hq6 Hq7 Hq8 Hq9 HS Hg]
        · isplitl [Hq0 Hq1 Hq2 Hq3 Hq4 Hq5 Hq6 Hq7 Hq8 Hq9 HS]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            iexact HS
          iexact Hg
        isplitl [Ho]; · iexact Ho
        isplitl [H0]; · iexact H0
        isplitl [H1]; · iexact H1
        iexact H2
    · have hz : t.val ≠ 0 := by omega
      rw [accAt1_step V c t h0, PhiS1_castSucc V c t, PhiS1_pos V c _ _ hz]
      unfold scoped1
      iintro ⟨⟨⟨Hq0, Hq1, Hq2, Hq3, Hq4, Hq5, Hq6, Hq7, Hq8, Hq9, HS⟩, Hg⟩, Ho, ⟨%d0, H0⟩, ⟨%d1, H1⟩, H2⟩
      iapply (run1_B c Set.univ (grid1.coords t) _ _ _ _ _ _ _ _ (fun h => h0 ((hcond1_0 t).mp h)) (fun h => h1 ((hcond1_1 t).mp h))
        (iblk1 V c 0 t) (iblk1 V c 1 t) (accAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hq0 Hq1 Hq2 Hq3 Hq4 Hq5 Hq6 Hq7 Hq8 Hq9 HS Hg]
      · isplitl [Hq0 Hq1 Hq2 Hq3 Hq4 Hq5 Hq6 Hq7 Hq8 Hq9 HS]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          iexact HS
        iexact Hg
      isplitl [Ho]; · iexact Ho
      isplitl [H0]; · iexact H0
      isplitl [H1]; · iexact H1
      iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the same back: the partial sum in the scratch is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  unfold scoped1
  iintro ⟨⟨Hq0, Hq1, Hq2, Hq3, Hq4, Hq5, Hq6, Hq7, Hq8, Hq9, HS⟩, Hg⟩
  isplitl [Hq0 Hq1 Hq2 Hq3 Hq4 Hq5 Hq6 Hq7 Hq8 Hq9 HS]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    iexists _; iexact HS
  iexact Hg

end Cert.Kernel.Hand

end
-- ==== Proof.K.Segs.lean ====
/-
  The whole program as a chain of segments: the host reshape of the filter into a column, the first pallas_call, the
  second pallas_call; and the run it yields.

  The buffer contents at each boundary are a fold from the launch memory: after the reshape; then with the first call's
  arrays at what its write-backs leave (its inputs as entered, its result block by block); then the same for the second
  call, which is entered from exactly what the first left. Each call's arrays are split out of the unscoped buffers at
  entry and put back at exit; the generator register and the scoped buffers pass through the call's invariant; nothing
  is owed to another core and no call has a semaphore of its own. The run's final memory holds every unscoped buffer at
  the last boundary's contents: each argument read back through the fold is what was launched, and the result buffer
  is the second call's result array after its last write-back.
-/
import proofs.«164439_j68341519613981_2_alg».proof.Proof.K.R0Body
import proofs.«164439_j68341519613981_2_alg».proof.Proof.K.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the reshape (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit (the second call's entry): its arrays at what the pipeline leaves, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### Each argument ends as launched

The reshape writes its own result only; a call leaves an input array as entered and does not touch an array none of
its windows stages. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 0).trans (((dat1 (V2 m ρ) c).arrAt_in 0 rfl _).trans (A_eq1 (V2 m ρ) c 0))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 0).trans (((dat0 (V1 m ρ) c).arrAt_in 0 rfl _).trans (A_eq0 (V1 m ρ) c 0))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg4) := rfl
/-- The result buffer ends at the second call's result array after its last write-back. -/
theorem W3_main_v2 (c : Dev nD) : W3 m ρ c (Proc.devRef .tc main_v2) = (dat1 (V2 m ρ) c).arrAt 2 cfg1.N :=
  W3_arr m ρ c 2

/-! ## The proof data family and the thread state -/

abbrev adm : (p : Fin 2) → (pcfgs (F := F) p).Adm := fun p => (cfgs p).toPCfg_adm
/-- Every call's proof data, each at its entry contents (a literal match on the call's number). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the register. -/
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec0 c : sProp 𝕄) from by
      unfold Pipeline.ΦA
      iintro ⟨Hp, -, Hr⟩
      isplitl [Hr]; · iexact Hr
      iexact Hp).trans (hin0 (V1 m ρ) c)
  hout c := (hout0 (V1 m ρ) c).trans (by
      rw [Pipeline.ownSems0_none]
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3` (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec1 c : sProp 𝕄) from by
      unfold Pipeline.ΦA
      iintro ⟨Hp, -, Hr⟩
      isplitl [Hr]; · iexact Hr
      iexact Hp).trans (hin1 (V2 m ρ) c)
  hout c := (hout1 (V2 m ρ) c).trans (by
      rw [Pipeline.ownSems0_none]
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds each unscoped buffer at the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run m ρ)

end Cert.Kernel.Hand

end
-- ==== Proof.KI.R0Kit.lean ====
/-
  The first pallas_call (grid 8 × 4, point t = 4·i + k): what its body is run on and where.

  Window 0 is the 1024 × 2048 block (i, k) of the 8192 × 8192 matrix, window 1 the 2048 × 128 block (k, 0) of the
  features, window 2 the whole 128 × 64 weight matrix, window 3 the 1024 × 1 block (i, 0) of the filter column,
  window 4 the 1024 × 64 block (i, 0) of the result; a 1024 × 64 scratch buffer carries the partial sum from one
  point to the next. The body resets the scratch where k = 0 (t ≡ 0 mod 4), adds one product of blocks to it at
  every point, and stores the scaled scratch into window 4 where k = 3 (t ≡ 3 mod 4), the only points at which
  window 4 is written back; elsewhere window 4 is idle. An input window's buffer holds its block at every point,
  fetched there or not.
-/
import proofs.«164439_j68341519613981_2_alg».proof.Proof.Gen.KernelIdeal.Launch
import proofs.«164439_j68341519613981_2_alg».proof.Proof.Gen.KernelIdeal.Skeleton
import proofs.«164439_j68341519613981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (an unfetched input's
    block index has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- The reset condition (k = 0), as the body computes it from the second grid coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The store condition (k = 3). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where k ≠ 3 the result window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where k = 3 it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
/-- The scratch that carries the partial sum. -/
abbrev scM0 : Memref sig .tc .vmem S1024x64 .f32 := Memref.whole cc0_scratch0

/-- The core's other scoped buffers (the second call's staging and scratch), each whole at some contents: this call
    never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the call's body may use and need not describe, with the scratch singled out: the scratch at some contents,
    the other scoped buffers, the generator register at some state. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

end Cert.KernelIdeal.Hand

end
-- ==== Proof.KI.R0Runs.lean ====
/-
  The body of the first pallas_call run on whole buffers, one statement per way its two conditions fall.

  With A the 1024 × 2048 block of the big matrix, Fb the 2048 × 128 block of the features, Wm the weights, s the
  carried partial sum and f the 1024 × 1 block of the filter column:
  * k = 0: the scratch is set to zero and then to  0-splat + A·(Fb·Wm)  (the payload of the accumulating store read
    at the zero splat), nothing else is written;
  * k = 1, 2: the scratch goes from s to  s + A·(Fb·Wm);
  * k = 3: the same, and the result block is stored as (s + A·(Fb·Wm)) · f broadcast along the row.
  Every load and store is through the whole-buffer rectangle at offset zero, so a buffer's contents after the run are
  the last store's payload, and a load after a store reads that store's payload back.
-/
import proofs.«164439_j68341519613981_2_alg».proof.Proof.KI.R0Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body: zero on both axes. -/
theorem zeros2 : (![0, 0] : Fin 2 → Nat) = fun _ => 0 := by funext a; fin_cases a <;> rfl

/-- After a list of stores whose LAST is through the whole rectangle at offset zero, the buffer reads as that store's
    payload, whatever it held and whatever the earlier stores were (stated over any shape). -/
theorem read_writes_head_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

set_option maxHeartbeats 2000000 in
/-- k = 1, 2 (neither condition holds): the partial sum `xs` becomes `xs + A·(Fb·Wm)`; the three inputs are handed back. -/
theorem run0_B (c : Dev nD) (E : Set ℕ) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole)
    (hc0 : ¬cond0_0 i) (hc1 : ¬cond0_1 i)
    (x0 : Vec F S1024x2048 .f32) (x1 : Vec F S2048x128 .f32) (x2 : Vec F S128x64 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg7 fullShare (k0_pay2 x1 x2 x0 xs)) -∗ K ⟨⟩))
      ⊢ wp frame (wpE (defs₀ (F := F)) Variants.none c none) E (cc0__stage2_fused_kernel i arg2 harg2 arg3 harg3 arg4 harg4 arg5 harg5 arg6 harg6 arg7 harg7) K := by
  simp only [cc0__stage2_fused_kernel_eq_skeleton]; unfold cc0__stage2_fused_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (read_writes_head_whole _ _ zeros2 _ _ _).trans ?_
  simp only [View.readAt_eq_ld, View.ld_unit_zero (S := S2048x128) zeros2, View.ld_unit_zero (S := S128x64) zeros2, View.ld_unit_zero (S := S1024x2048) zeros2, View.ld_unit_zero (S := S1024x64) zeros2, View.ld_unit_zero (S := S1024x1) zeros2]

set_option maxHeartbeats 2000000 in
/-- k = 0 (the reset holds, the store does not): whatever the scratch held, it becomes `0-splat + A·(Fb·Wm)`. -/
theorem run0_A (c : Dev nD) (E : Set ℕ) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole)
    (hc0 : cond0_0 i) (hc1 : ¬cond0_1 i)
    (x0 : Vec F S1024x2048 .f32) (x1 : Vec F S2048x128 .f32) (x2 : Vec F S128x64 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg7 fullShare (k0_pay2 x1 x2 x0 (k0_pay1 (F := F)))) -∗ K ⟨⟩))
      ⊢ wp frame (wpE (defs₀ (F := F)) Variants.none c none) E (cc0__stage2_fused_kernel i arg2 harg2 arg3 harg3 arg4 harg4 arg5 harg5 arg6 harg6 arg7 harg7) K := by
  simp only [cc0__stage2_fused_kernel_eq_skeleton]; unfold cc0__stage2_fused_kernel_skel
  unfold owns
  iintro ⟨⟨%f0, %hf0, H0⟩, ⟨%f1, %hf1, H1⟩, ⟨%f2, %hf2, H2⟩, ⟨%d, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  refine (read_writes_head_whole _ _ zeros2 _ _ _).trans ?_
  simp only [View.readAt_eq_ld, View.ld_unit_zero (S := S2048x128) zeros2, View.ld_unit_zero (S := S128x64) zeros2, View.ld_unit_zero (S := S1024x2048) zeros2, View.ld_unit_zero (S := S1024x64) zeros2, View.ld_unit_zero (S := S1024x1) zeros2, View.readCov_cons_toLoadRect]

set_option maxHeartbeats 2000000 in
/-- k = 3 (the store holds, the reset does not): the partial sum becomes `xs + A·(Fb·Wm)` and the result block, whatever
    it held, that sum times the filter column broadcast along each row; the four inputs are handed back. -/
theorem run0_C (c : Dev nD) (E : Set ℕ) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole)
    (hc0 : ¬cond0_0 i) (hc1 : cond0_1 i)
    (x0 : Vec F S1024x2048 .f32) (x1 : Vec F S2048x128 .f32) (x2 : Vec F S128x64 .f32) (x3 : Vec F S1024x1 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (k0_pay2 x1 x2 x0 xs) x3) ∗ owns (c : Thread nD τ) arg7 fullShare (k0_pay2 x1 x2 x0 xs)) -∗ K ⟨⟩))
      ⊢ wp frame (wpE (defs₀ (F := F)) Variants.none c none) E (cc0__stage2_fused_kernel i arg2 harg2 arg3 harg3 arg4 harg4 arg5 harg5 arg6 harg6 arg7 harg7) K := by
  simp only [cc0__stage2_fused_kernel_eq_skeleton]; unfold cc0__stage2_fused_kernel_skel
  unfold owns
  iintro ⟨⟨%f0, %hf0, H0⟩, ⟨%f1, %hf1, H1⟩, ⟨%f2, %hf2, H2⟩, ⟨%f3, %hf3, H3⟩, ⟨%d, %fo, -, HO⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    sl_unfold_run_names
    refine (read_writes_head_whole _ _ zeros2 _ _ _).trans ?_
    simp only [View.readAt_eq_ld, View.ld_unit_zero (S := S2048x128) zeros2, View.ld_unit_zero (S := S128x64) zeros2, View.ld_unit_zero (S := S1024x2048) zeros2, View.ld_unit_zero (S := S1024x64) zeros2, View.ld_unit_zero (S := S1024x1) zeros2, View.readCov_cons_toLoadRect]
  iexists _; isplitr
  swap; · iexact HS
  ipureintro
  sl_unfold_run_names
  refine (read_writes_head_whole _ _ zeros2 _ _ _).trans ?_
  simp only [View.readAt_eq_ld, View.ld_unit_zero (S := S2048x128) zeros2, View.ld_unit_zero (S := S128x64) zeros2, View.ld_unit_zero (S := S1024x2048) zeros2, View.ld_unit_zero (S := S1024x64) zeros2, View.ld_unit_zero (S := S1024x1) zeros2]

end Cert.KernelIdeal.Hand

end
-- ==== Proof.KI.R0Body.lean ====
/-
  The first pallas_call point by point: the partial sum its scratch carries, its proof data, and the body's
  obligation at every grid point.

  At point t = 4·i + k the scratch ends at  acc(t) = A_t·(Fb_t·Wm) added to the zero splat when k = 0 and to acc(t − 1)
  otherwise (A_t, Fb_t the blocks of the big matrix and of the features at t). Between two points the call's
  invariant holds the scratch at acc of the point before (at anything before the first point), the core's other
  scoped buffers and the generator register. Each input window's buffer holds its block; the result window's buffer
  is left as found where k ≠ 3 (idle there, not written back) and holds acc(t) times the filter block where k = 3.
-/
import proofs.«164439_j68341519613981_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The partial sum -/

/-- The scratch after the body at position `n`: the product of the point's blocks added to the zero splat at a point
    with k = 0, to what the point before left otherwise. -/
def accAt0 (c : Dev nD) : (n : ℕ) → n < cfg0.N → Vec F S1024x64 .f32
  | 0, hn => k0_pay2 (iblk0 V c 1 ⟨0, hn⟩) (iblk0 V c 2 ⟨0, hn⟩) (iblk0 V c 0 ⟨0, hn⟩) (k0_pay1 (F := F))
  | n + 1, hn =>
    if (n + 1) % 4 = 0 then k0_pay2 (iblk0 V c 1 ⟨n + 1, hn⟩) (iblk0 V c 2 ⟨n + 1, hn⟩) (iblk0 V c 0 ⟨n + 1, hn⟩) (k0_pay1 (F := F))
    else k0_pay2 (iblk0 V c 1 ⟨n + 1, hn⟩) (iblk0 V c 2 ⟨n + 1, hn⟩) (iblk0 V c 0 ⟨n + 1, hn⟩) (accAt0 c n (Nat.lt_of_succ_lt hn))

theorem accAt0_reset (c : Dev nD) (t : Fin cfg0.N) (h0 : t.val % 4 = 0) :
    accAt0 V c t.val t.isLt = k0_pay2 (iblk0 V c 1 t) (iblk0 V c 2 t) (iblk0 V c 0 t) (k0_pay1 (F := F)) := by
  obtain ⟨n, hn⟩ := t
  cases n with
  | zero => rfl
  | succ n => exact if_pos h0

theorem accAt0_step (c : Dev nD) (t : Fin cfg0.N) (h0 : ¬t.val % 4 = 0) :
    accAt0 V c t.val t.isLt = k0_pay2 (iblk0 V c 1 t) (iblk0 V c 2 t) (iblk0 V c 0 t)
      (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- Before position `n`: at the start what the call's body may use at anything; afterwards the scratch at the partial
    sum the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 (F := F) c) ∗ (∃ r, prngReg c r)) := by
  cases n with
  | zero => exact absurd rfl hz
  | succ n => rfl

/-! ## The proof data -/

/-- On core `c`: the arrays as the call finds them; after the body at point `t` each input's buffer at its block and the
    result's at the partial sum times the filter block; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (accAt0 V c t.val t.isLt) (iblk0 V c 3 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay3 (accAt0 V c t.val t.isLt) (iblk0 V c 3 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point: the closed forms of the two conditions say which of the three runs applies; the invariant
    hands the run the scratch (at the partial sum of the point before, or at anything where k = 0) and takes it back at
    this point's partial sum; the inputs come back as they were; the result window is stored where k = 3 and passes
    through untouched elsewhere; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 32 := lt_of_lt_of_eq t.isLt (show cfg0.N = 32 from N_0)
  by_cases h1 : t.val % 4 = 3
  · have h0 : ¬t.val % 4 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [accAt0_step V c t h0, PhiS0_castSucc V c t, PhiS0_pos V c _ _ hz]
    iintro ⟨⟨⟨HS, Hoth⟩, Hg⟩, Ho, ⟨%d0, H0⟩, ⟨%d1, H1⟩, ⟨%d2, H2⟩, ⟨%d3, H3⟩, ⟨%d4, H4⟩⟩
    iapply (run0_C c Set.univ (grid0.coords t) _ _ _ _ _ _ _ _ _ _ _ _ (fun h => h0 ((hcond0_0 t).mp h)) ((hcond0_1 t).mpr h1)
      (iblk0 V c 0 t) (iblk0 V c 1 t) (iblk0 V c 2 t) (iblk0 V c 3 t) (accAt0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (idleAt0_4 t (fun h => h1 ((hcond0_1 t).mp h))) (noFlush0_4 t (fun h => h1 ((hcond0_1 t).mp h)))]
    by_cases h0 : t.val % 4 = 0
    · rw [accAt0_reset V c t h0]
      by_cases hz : t.val = 0
      · rw [PhiS0_castSucc V c t, PhiS0_zero V c _ _ hz, PhiA0_eq]
        iintro ⟨⟨⟨HS, Hoth⟩, Hg⟩, Ho, ⟨%d0, H0⟩, ⟨%d1, H1⟩, ⟨%d2, H2⟩, ⟨%d3, H3⟩, H4⟩
        iapply (run0_A c Set.univ (grid0.coords t) _ _ _ _ _ _ _ _ _ _ _ _ ((hcond0_0 t).mpr h0) (fun h => h1 ((hcond0_1 t).mp h))
          (iblk0 V c 0 t) (iblk0 V c 1 t) (iblk0 V c 2 t) _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        iexact H4
      · rw [PhiS0_castSucc V c t, PhiS0_pos V c _ _ hz]
        iintro ⟨⟨⟨HS, Hoth⟩, Hg⟩, Ho, ⟨%d0, H0⟩, ⟨%d1, H1⟩, ⟨%d2, H2⟩, ⟨%d3, H3⟩, H4⟩
        iapply (run0_A c Set.univ (grid0.coords t) _ _ _ _ _ _ _ _ _ _ _ _ ((hcond0_0 t).mpr h0) (fun h => h1 ((hcond0_1 t).mp h))
          (iblk0 V c 0 t) (iblk0 V c 1 t) (iblk0 V c 2 t) _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        iexact H4
    · have hz : t.val ≠ 0 := by omega
      rw [accAt0_step V c t h0, PhiS0_castSucc V c t, PhiS0_pos V c _ _ hz]
      iintro ⟨⟨⟨HS, Hoth⟩, Hg⟩, Ho, ⟨%d0, H0⟩, ⟨%d1, H1⟩, ⟨%d2, H2⟩, ⟨%d3, H3⟩, H4⟩
      iapply (run0_B c Set.univ (grid0.coords t) _ _ _ _ _ _ _ _ _ _ _ _ (fun h => h0 ((hcond0_0 t).mp h)) (fun h => h1 ((hcond0_1 t).mp h))
        (iblk0 V c 0 t) (iblk0 V c 1 t) (iblk0 V c 2 t) (accAt0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the call is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the same back: the partial sum in the scratch is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Hoth⟩, Hg⟩
  isplitl [HS Hoth]
  · isplitl [HS]; · iexists _; iexact HS
    iexact Hoth
  iexact Hg

end Cert.KernelIdeal.Hand

end
-- ==== Proof.KI.R1Kit.lean ====
/-
  The second pallas_call (grid 8 × 4, point t = 4·i + k): what its body is run on and where.

  Window 0 is the 1024 × 2048 block (i, k) of the first 8192 × 8192 matrix, window 1 the 2048 × 64 block (k, 0) of
  the first call's result, window 2 the 1024 × 64 block (i, 0) of the final result; a 1024 × 64 scratch buffer
  carries the partial sum from one point to the next. The body resets the scratch where k = 0 (t ≡ 0 mod 4), adds
  one product of blocks to it at every point, and copies the scratch into window 2 where k = 3 (t ≡ 3 mod 4), the
  only points at which window 2 is written back; elsewhere window 2 is idle. An input window's buffer holds its
  block at every point.
-/
import proofs.«164439_j68341519613981_2_alg».proof.Proof.Gen.KernelIdeal.Launch
import proofs.«164439_j68341519613981_2_alg».proof.Proof.Gen.KernelIdeal.Skeleton
import proofs.«164439_j68341519613981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point (both inputs are fetched at every point, and a
    block that were not fetched would not have moved), for any proof data over these arrays whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- The reset condition (k = 0), as the body computes it from the second grid coordinate. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The copy-out condition (k = 3). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where k ≠ 3 the result window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where k = 3 it is live. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
/-- The scratch that carries the partial sum. -/
abbrev scM1 : Memref sig .tc .vmem S1024x64 .f32 := Memref.whole cc1_scratch0

/-- The core's scoped buffers that are no staging buffer of this call, in the order the call lists them: the first
    call's nine staging buffers and its scratch, each whole at some contents (this call never touches them), and last
    this call's own scratch, about which `P` speaks. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ P)

/-- What the call's body may use and need not describe, with the scratch singled out: the other scoped buffers, the
    scratch at some contents, the generator register at some state. -/
theorem PhiA1_eq (c : Dev nD) :
    (Pipeline.ΦA spec1 c : sProp 𝕄)
      = iprop(scoped1 (F := F) c iprop(∃ d, owns (c : Thread nD τ) scM1 fullShare d) ∗ (∃ r, prngReg c r)) := by
  unfold Pipeline.ΦA scoped1; rw [scopedRest1_eq]; simp only [scM1, owns_whole]; try rfl

end Cert.KernelIdeal.Hand

end
-- ==== Proof.KI.R1Runs.lean ====
/-
  The body of the second pallas_call run on whole buffers, one statement per way its two conditions fall.

  With A the 1024 × 2048 block of the first big matrix, U the 2048 × 64 block of the first call's result and s the
  carried partial sum:
  * k = 0: the scratch is set to zero and then to  0-splat + A·U  (the payload of the accumulating store read at the
    zero splat), nothing else is written;
  * k = 1, 2: the scratch goes from s to  s + A·U;
  * k = 3: the same, and the result block is stored as what the scratch now holds,  s + A·U.
  Every load and store is through the whole-buffer rectangle at offset zero, so a buffer's contents after the run are
  the last store's payload, and a load after a store reads that store's payload back.
-/
import proofs.«164439_j68341519613981_2_alg».proof.Proof.KI.R1Kit
import proofs.«164439_j68341519613981_2_alg».proof.Proof.KI.R0Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- k = 1, 2 (neither condition holds): the partial sum `xs` becomes `xs + A·U`; the two inputs are handed back. -/
theorem run1_B (c : Dev nD) (E : Set ℕ) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole)
    (hc0 : ¬cond1_0 i) (hc1 : ¬cond1_1 i)
    (x0 : Vec F S1024x2048 .f32) (x1 : Vec F S2048x64 .f32) (xs : Vec F S1024x64 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k1_pay2 x0 x1 xs)) -∗ K ⟨⟩))
      ⊢ wp frame (wpE (defs₀ (F := F)) Variants.none c none) E (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  refine (read_writes_head_whole _ _ zeros2 _ _ _).trans ?_
  simp only [View.readAt_eq_ld, View.ld_unit_zero (S := S1024x2048) zeros2, View.ld_unit_zero (S := S2048x64) zeros2, View.ld_unit_zero (S := S1024x64) zeros2]

set_option maxHeartbeats 2000000 in
/-- k = 0 (the reset holds, the copy-out does not): whatever the scratch held, it becomes `0-splat + A·U`. -/
theorem run1_A (c : Dev nD) (E : Set ℕ) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole)
    (hc0 : cond1_0 i) (hc1 : ¬cond1_1 i)
    (x0 : Vec F S1024x2048 .f32) (x1 : Vec F S2048x64 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k1_pay2 x0 x1 (k1_pay1 (F := F)))) -∗ K ⟨⟩))
      ⊢ wp frame (wpE (defs₀ (F := F)) Variants.none c none) E (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (read_writes_head_whole _ _ zeros2 _ _ _).trans ?_
  simp only [View.readAt_eq_ld, View.ld_unit_zero (S := S1024x2048) zeros2, View.ld_unit_zero (S := S2048x64) zeros2, View.ld_unit_zero (S := S1024x64) zeros2, View.readCov_cons_toLoadRect]

set_option maxHeartbeats 2000000 in
/-- k = 3 (the copy-out holds, the reset does not): the partial sum becomes `xs + A·U` and the result block, whatever it
    held, the same (the scratch read back after its store); the two inputs are handed back. -/
theorem run1_C (c : Dev nD) (E : Set ℕ) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole)
    (hc0 : ¬cond1_0 i) (hc1 : cond1_1 i)
    (x0 : Vec F S1024x2048 .f32) (x1 : Vec F S2048x64 .f32) (xs : Vec F S1024x64 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__matmul_acc_kernel i arg2 harg2 arg3 harg3 arg4 harg4 arg5 harg5) K := by
  simp only [cc1__matmul_acc_kernel_eq_skeleton]; unfold cc1__matmul_acc_kernel_skel
  unfold owns
  iintro ⟨⟨%f0, %hf0, H0⟩, ⟨%f1, %hf1, H1⟩, ⟨%d, %fo, -, HO⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    refine (read_writes_head_whole _ _ zeros2 _ _ _).trans ?_
    simp only [View.readAt_eq_ld, View.ld_unit_zero (S := S1024x2048) zeros2, View.ld_unit_zero (S := S2048x64) zeros2, View.ld_unit_zero (S := S1024x64) zeros2, View.readCov_cons_toLoadRect]
  iexists _; isplitr
  swap; · iexact HS
  ipureintro
  sl_unfold_run_names
  refine (read_writes_head_whole _ _ zeros2 _ _ _).trans ?_
  simp only [View.readAt_eq_ld, View.ld_unit_zero (S := S1024x2048) zeros2, View.ld_unit_zero (S := S2048x64) zeros2, View.ld_unit_zero (S := S1024x64) zeros2]

end Cert.KernelIdeal.Hand

end
-- ==== Proof.KI.R1Body.lean ====
/-
  The second pallas_call point by point: the partial sum its scratch carries, its proof data, and the body's
  obligation at every grid point.

  At point t = 4·i + k the scratch ends at  acc(t) = A_t·U_t added to the zero splat when k = 0 and to acc(t − 1)
  otherwise (A_t, U_t the blocks of the first big matrix and of the first call's result at t). Between two points
  the call's invariant holds the core's other scoped buffers, the scratch at acc of the point before (at anything
  before the first point) and the generator register. Each input window's buffer holds its block; the result
  window's buffer is left as found where k ≠ 3 (idle there, not written back) and holds acc(t) where k = 3.
-/
import proofs.«164439_j68341519613981_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The partial sum -/

/-- The scratch after the body at position `n`: the product of the point's blocks added to the zero splat at a point
    with k = 0, to what the point before left otherwise. -/
def accAt1 (c : Dev nD) : (n : ℕ) → n < cfg1.N → Vec F S1024x64 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_reset (c : Dev nD) (t : Fin cfg1.N) (h0 : t.val % 4 = 0) :
    accAt1 V c t.val t.isLt = k1_pay2 (iblk1 V c 0 t) (iblk1 V c 1 t) (k1_pay1 (F := F)) := by
  obtain ⟨n, hn⟩ := t
  cases n with
  | zero => rfl
  | succ n => exact if_pos h0

theorem accAt1_step (c : Dev nD) (t : Fin cfg1.N) (h0 : ¬t.val % 4 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- Before position `n`: at the start what the call's body may use at anything; afterwards the other scoped buffers at
    anything, the scratch at the partial sum the point before left, the generator register at some state. -/
def PhiS1 (c : Dev nD) : (n : ℕ) → n ≤ cfg1.N → sProp 𝕄
  | 0, _ => Pipeline.ΦA spec1 c
  | n + 1, hn => iprop(scoped1 (F := F) c (owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1 (F := F) c (owns (c : Thread nD τ) scM1 fullShare (accAt1 V c n hn)) ∗ (∃ r, prngReg c r)) := rfl
theorem PhiS1_pos (c : Dev nD) (n : ℕ) (h : n ≤ cfg1.N) (hz : n ≠ 0) :
    PhiS1 V c n h = iprop(scoped1 (F := F) c (owns (c : Thread nD τ) scM1 fullShare (accAt1 V c (n - 1) (by omega))) ∗ (∃ r, prngReg c r)) := by
  cases n with
  | zero => exact absurd rfl hz
  | succ n => rfl

/-! ## The proof data -/

/-- On core `c`: the arrays as the call finds them; after the body at point `t` each input's buffer at its block and the
    result's at the partial sum; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's obligation at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4800000 in
/-- The body at any point: the closed forms of the two conditions say which of the three runs applies; the invariant
    hands the run the scratch (at the partial sum of the point before, or at anything where k = 0) and takes it back at
    this point's partial sum; the inputs come back as they were; the result window receives the partial sum where k = 3
    and passes through untouched elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 32 := lt_of_lt_of_eq t.isLt (show cfg1.N = 32 from N_1)
  by_cases h1 : t.val % 4 = 3
  · have h0 : ¬t.val % 4 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [accAt1_step V c t h0, PhiS1_castSucc V c t, PhiS1_pos V c _ _ hz]
    unfold scoped1
    iintro ⟨⟨⟨Hq0, Hq1, Hq2, Hq3, Hq4, Hq5, Hq6, Hq7, Hq8, Hq9, HS⟩, Hg⟩, Ho, ⟨%d0, H0⟩, ⟨%d1, H1⟩, ⟨%d2, H2⟩⟩
    iapply (run1_C c Set.univ (grid1.coords t) _ _ _ _ _ _ _ _ (fun h => h0 ((hcond1_0 t).mp h)) ((hcond1_1 t).mpr h1)
      (iblk1 V c 0 t) (iblk1 V c 1 t) (accAt1 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [Hq0 Hq1 Hq2 Hq3 Hq4 Hq5 Hq6 Hq7 Hq8 Hq9 HS Hg]
    · isplitl [Hq0 Hq1 Hq2 Hq3 Hq4 Hq5 Hq6 Hq7 Hq8 Hq9 HS]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        iexact HS
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [accAt1_reset V c t h0]
      by_cases hz : t.val = 0
      · rw [PhiS1_castSucc V c t, PhiS1_zero V c _ _ hz, PhiA1_eq]
        unfold scoped1
        iintro ⟨⟨⟨Hq0, Hq1, Hq2, Hq3, Hq4, Hq5, Hq6, Hq7, Hq8, Hq9, HS⟩, Hg⟩, Ho, ⟨%d0, H0⟩, ⟨%d1, H1⟩, H2⟩
        iapply (run1_A c Set.univ (grid1.coords t) _ _ _ _ _ _ _ _ ((hcond1_0 t).mpr h0) (fun h => h1 ((hcond1_1 t).mp h))
          (iblk1 V c 0 t) (iblk1 V c 1 t) _)
        isplitl [H0]; · iexact H0
        isplitl [H1]; · iexact H1
        isplitl [HS]; · iexact HS
        iintro ⟨H0, H1, HS⟩
        isplitl [Hq0 Hq1 Hq2 Hq3 Hq4 Hq5 Hq6 Hq7 Hq8 Hq9 HS Hg]
        · isplitl [Hq0 Hq1 Hq2 Hq3 Hq4 Hq5 Hq6 Hq7 Hq8 Hq9 HS]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            iexact HS
          iexact Hg
        isplitl [Ho]; · iexact Ho
        isplitl [H0]; · iexact H0
        isplitl [H1]; · iexact H1
        iexact H2
      · rw [PhiS1_castSucc V c t, PhiS1_pos V c _ _ hz]
        unfold scoped1
        iintro ⟨⟨⟨Hq0, Hq1, Hq2, Hq3, Hq4, Hq5, Hq6, Hq7, Hq8, Hq9, HS⟩, Hg⟩, Ho, ⟨%d0, H0⟩, ⟨%d1, H1⟩, H2⟩
        iapply (run1_A c Set.univ (grid1.coords t) _ _ _ _ _ _ _ _ ((hcond1_0 t).mpr h0) (fun h => h1 ((hcond1_1 t).mp h))
          (iblk1 V c 0 t) (iblk1 V c 1 t) _)
        isplitl [H0]; · iexact H0
        isplitl [H1]; · iexact H1
        isplitl [HS]; · iexists _; iexact HS
        iintro ⟨H0, H1, HS⟩
        isplitl [Hq0 Hq1 Hq2 Hq3 Hq4 Hq5 Hq6 Hq7 Hq8 Hq9 HS Hg]
        · isplitl [Hq0 Hq1 Hq2 Hq3 Hq4 Hq5 Hq6 Hq7 Hq8 Hq9 HS]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            iexact HS
          iexact Hg
        isplitl [Ho]; · iexact Ho
        isplitl [H0]; · iexact H0
        isplitl [H1]; · iexact H1
        iexact H2
    · have hz : t.val ≠ 0 := by omega
      rw [accAt1_step V c t h0, PhiS1_castSucc V c t, PhiS1_pos V c _ _ hz]
      unfold scoped1
      iintro ⟨⟨⟨Hq0, Hq1, Hq2, Hq3, Hq4, Hq5, Hq6, Hq7, Hq8, Hq9, HS⟩, Hg⟩, Ho, ⟨%d0, H0⟩, ⟨%d1, H1⟩, H2⟩
      iapply (run1_B c Set.univ (grid1.coords t) _ _ _ _ _ _ _ _ (fun h => h0 ((hcond1_0 t).mp h)) (fun h => h1 ((hcond1_1 t).mp h))
        (iblk1 V c 0 t) (iblk1 V c 1 t) (accAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [Hq0 Hq1 Hq2 Hq3 Hq4 Hq5 Hq6 Hq7 Hq8 Hq9 HS Hg]
      · isplitl [Hq0 Hq1 Hq2 Hq3 Hq4 Hq5 Hq6 Hq7 Hq8 Hq9 HS]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          iexact HS
        iexact Hg
      isplitl [Ho]; · iexact Ho
      isplitl [H0]; · iexact H0
      isplitl [H1]; · iexact H1
      iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the same back: the partial sum in the scratch is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  unfold scoped1
  iintro ⟨⟨Hq0, Hq1, Hq2, Hq3, Hq4, Hq5, Hq6, Hq7, Hq8, Hq9, HS⟩, Hg⟩
  isplitl [Hq0 Hq1 Hq2 Hq3 Hq4 Hq5 Hq6 Hq7 Hq8 Hq9 HS]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    iexists _; iexact HS
  iexact Hg

end Cert.KernelIdeal.Hand

end
-- ==== Proof.KI.Segs.lean ====
/-
  The whole program as a chain of segments: the host reshape of the filter into a column, the first pallas_call, the
  second pallas_call; and the run it yields.

  The buffer contents at each boundary are a fold from the launch memory: after the reshape; then with the first call's
  arrays at what its write-backs leave (its inputs as entered, its result block by block); then the same for the second
  call, which is entered from exactly what the first left. Each call's arrays are split out of the unscoped buffers at
  entry and put back at exit; the generator register and the scoped buffers pass through the call's invariant; nothing
  is owed to another core and no call has a semaphore of its own. The run's final memory holds every unscoped buffer at
  the last boundary's contents: each argument read back through the fold is what was launched, and the result buffer
  is the second call's result array after its last write-back.
-/
import proofs.«164439_j68341519613981_2_alg».proof.Proof.KI.R0Body
import proofs.«164439_j68341519613981_2_alg».proof.Proof.KI.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the reshape (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit (the second call's entry): its arrays at what the pipeline leaves, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### Each argument ends as launched

The reshape writes its own result only; a call leaves an input array as entered and does not touch an array none of
its windows stages. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 0).trans (((dat1 (V2 m ρ) c).arrAt_in 0 rfl _).trans (A_eq1 (V2 m ρ) c 0))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 0).trans (((dat0 (V1 m ρ) c).arrAt_in 0 rfl _).trans (A_eq0 (V1 m ρ) c 0))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg4) := rfl
/-- The result buffer ends at the second call's result array after its last write-back. -/
theorem W3_main_v2 (c : Dev nD) : W3 m ρ c (Proc.devRef .tc main_v2) = (dat1 (V2 m ρ) c).arrAt 2 cfg1.N :=
  W3_arr m ρ c 2

/-! ## The proof data family and the thread state -/

abbrev adm : (p : Fin 2) → (pcfgs (F := F) p).Adm := fun p => (cfgs p).toPCfg_adm
/-- Every call's proof data, each at its entry contents (a literal match on the call's number). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the register. -/
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec0 c : sProp 𝕄) from by
      unfold Pipeline.ΦA
      iintro ⟨Hp, -, Hr⟩
      isplitl [Hr]; · iexact Hr
      iexact Hp).trans (hin0 (V1 m ρ) c)
  hout c := (hout0 (V1 m ρ) c).trans (by
      rw [Pipeline.ownSems0_none]
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3` (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec1 c : sProp 𝕄) from by
      unfold Pipeline.ΦA
      iintro ⟨Hp, -, Hr⟩
      isplitl [Hr]; · iexact Hr
      iexact Hp).trans (hin1 (V2 m ρ) c)
  hout c := (hout1 (V2 m ρ) c).trans (by
      rw [Pipeline.ownSems0_none]
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds each unscoped buffer at the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run m ρ)

end Cert.KernelIdeal.Hand

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.KI.Payloads.lean ====
import proofs.«164439_j68341519613981_2_alg».proof.Proof.Gen.KernelIdeal.Skeleton
import proofs.«164439_j68341519613981_2_alg».proof.Proof.LibPlainDot
import Idealize.ShloMosaic.Lib.ValueIdx
import Idealize.ShloMosaic.Lib.Pipeline.Value
import Idealize.ShloMosaic.PureOps.Ideal.Laws

/-!
# The kernel bodies' arithmetic read at an index, over the extended reals

Over the extended reals a float is exact, a narrowing format change is the identity, and a
shape cast of a shape to itself is the identity.  So each value a kernel body stores is, at a
row `p` and a column `o`:

* the zero splat: `0`;
* the accumulator plus a block product: `acc (p, o) + ∑ q, a (p, q) * b (q, o)`, where in the
  fused body `b (q, o)` is itself the block product `∑ c, x (q, c) * w (c, o)`;
* the accumulator scaled by a column vector broadcast along the rows' entries:
  `acc (p, o) * s (p, 0)`.
-/

noncomputable section

namespace Cert.KernelIdeal.Pay

open Cert.KernelIdeal Cert.KernelIdeal.Gen Idealize.ShloMosaic Idealize.ShloMosaic.ValueIdx
open scoped BigOperators

/-! ## The two contractions are plain matrix products -/

/-- Contract the left operand's second axis with the right operand's first, no batch axes: 2048×128 by 128×64. -/
theorem dot0_eq_plain : dot_S2048x128_S128x64_S2048x64_1_0_0_1_n_n = DotDims.plain 2048 128 64 := rfl

/-- The same dimension numbers: 1024×2048 by 2048×64. -/
theorem dot1_eq_plain : dot_S1024x2048_S2048x64_S1024x64_1_0_0_1_n_n = DotDims.plain 1024 2048 64 := rfl

/-- The 2048×128 by 128×64 product into the zero splat, at (q, o). -/
theorem mm0_at {φ₁ φ₂ : FTy} (a : FVec Ideal S2048x128 φ₁) (b : FVec Ideal S128x64 φ₂) (q : Fin 2048) (o : Fin 64) :
    matmul (F := Ideal) dot_S2048x128_S128x64_S2048x64_1_0_0_1_n_n none a b (constant S2048x64 .f32 0x00000000#32) (ix2 q o)
      = ∑ c : Fin 128, a (ix2 q c) * b (ix2 c o) := by
  rw [dot0_eq_plain]
  exact PlainDot.matmul_zero_apply none a b q o

/-- The 1024×2048 by 2048×64 product into the zero splat, at (p, o). -/
theorem mm1_at {φ₁ φ₂ : FTy} (a : FVec Ideal S1024x2048 φ₁) (b : FVec Ideal S2048x64 φ₂) (p : Fin 1024) (o : Fin 64) :
    matmul (F := Ideal) dot_S1024x2048_S2048x64_S1024x64_1_0_0_1_n_n none a b (constant S1024x64 .f32 0x00000000#32) (ix2 p o)
      = ∑ q : Fin 2048, a (ix2 p q) * b (ix2 q o) := by
  rw [dot1_eq_plain]
  exact PlainDot.matmul_zero_apply none a b p o

/-! ## The fused body -/

/-- The zero splat. -/
theorem pay1_at (p : Fin 1024) (o : Fin 64) : k0_pay1 (F := Ideal) (ix2 p o) = 0 := by
  unfold k0_pay1
  rw [shapeCast_self, broadcast_apply]
  exact Ideal.ofBits_zero_f32

/-- The accumulator plus the block of the inverse transform times the block product of features and weights. -/
theorem pay2_at (v3 : Vec Ideal S2048x128 .f32) (v5 : Vec Ideal S128x64 .f32) (v9 : Vec Ideal S1024x2048 .f32) (v11 : Vec Ideal S1024x64 .f32) (p : Fin 1024) (o : Fin 64) :
    k0_pay2 (F := Ideal) v3 v5 v9 v11 (ix2 p o) = v11 (ix2 p o) + ∑ q : Fin 2048, v9 (ix2 p q) * ∑ c : Fin 128, v3 (ix2 q c) * v5 (ix2 c o) := by
  unfold k0_pay2
  rw [shapeCast_self, addf_apply, mm1_at]
  refine congrArg (v11 (ix2 p o) + ·) (Finset.sum_congr rfl fun q _ => ?_)
  rw [truncf_apply, truncf_apply, mm0_at]
  refine congrArg (v9 (ix2 p q) * ·) (Finset.sum_congr rfl fun c _ => ?_)
  rw [truncf_apply, truncf_apply]

/-- A column vector broadcast to 64 columns reads its row's one entry. -/
theorem bcast_col_at (x : Vec Ideal S1024x1 .f32) (p : Fin 1024) (o : Fin 64) :
    broadcastTo S1024x64 x broadcasts_S1024x1_S1024x64 (ix2 p o) = x (ix2 p (0 : Fin 1)) :=
  broadcastTo_apply x broadcasts_S1024x1_S1024x64 (ix2 p o) (ix2 p (0 : Fin 1)) (fun a => match a with
    | ⟨0, _⟩ => by show p.val = if (1024 : Nat) = 1 then 0 else p.val; rw [if_neg (by decide)]
    | ⟨1, _⟩ => by show 0 = if (1 : Nat) = 1 then 0 else o.val; rw [if_pos rfl])

/-- The accumulator scaled by the filter's column. -/
theorem pay3_at (v20 : Vec Ideal S1024x64 .f32) (v21 : Vec Ideal S1024x1 .f32) (p : Fin 1024) (o : Fin 64) :
    k0_pay3 (F := Ideal) v20 v21 (ix2 p o) = v20 (ix2 p o) * v21 (ix2 p (0 : Fin 1)) := by
  unfold k0_pay3
  rw [mulf_apply, shapeCast_self, bcast_col_at]

/-! ## The plain accumulating body -/

/-- The zero splat. -/
theorem pay1'_at (p : Fin 1024) (o : Fin 64) : k1_pay1 (F := Ideal) (ix2 p o) = 0 := by
  unfold k1_pay1
  rw [shapeCast_self, broadcast_apply]
  exact Ideal.ofBits_zero_f32

/-- The accumulator plus the block product. -/
theorem pay2'_at (v3 : Vec Ideal S1024x2048 .f32) (v5 : Vec Ideal S2048x64 .f32) (v8 : Vec Ideal S1024x64 .f32) (p : Fin 1024) (o : Fin 64) :
    k1_pay2 (F := Ideal) v3 v5 v8 (ix2 p o) = v8 (ix2 p o) + ∑ q : Fin 2048, v3 (ix2 p q) * v5 (ix2 q o) := by
  unfold k1_pay2
  rw [shapeCast_self, addf_apply, mm1_at]
  refine congrArg (v8 (ix2 p o) + ·) (Finset.sum_congr rfl fun q _ => ?_)
  rw [truncf_apply, truncf_apply, shapeCast_self]

end Cert.KernelIdeal.Pay

end
-- ==== Proof.WaveletSum.lean ====
import Mathlib.Data.EReal.Inv
import Mathlib.Algebra.BigOperators.Fin

/-!
# A blocked sum over the extended reals

A sum of 8192 extended-real terms accumulated from zero in four consecutive blocks of 2048
equals the plain sum.  Two nested such contractions, the inner one scaled on the right,
equal the reference double sum.  Only commutativity and associativity of `+` and `*`
on `EReal` are used: no distributivity, no cancellation, no finiteness.
-/

namespace Cert.Wavelet
open scoped BigOperators

noncomputable section

/-- A sum over 8192 terms accumulated from zero in four consecutive blocks of 2048. -/
def acc4 (f : Fin 8192 → EReal) : EReal :=
  (((0 + ∑ q : Fin 2048, f ⟨q.val, by omega⟩) + ∑ q : Fin 2048, f ⟨2048 + q.val, by omega⟩)
     + ∑ q : Fin 2048, f ⟨4096 + q.val, by omega⟩) + ∑ q : Fin 2048, f ⟨6144 + q.val, by omega⟩

/-- The blocked accumulation is the plain sum: `8192 = 2048 + 2048 + 2048 + 2048` and a sum
over `Fin (a + b)` splits into the sum over the first `a` and the last `b` indices. -/
theorem acc4_eq_sum (f : Fin 8192 → EReal) : acc4 f = ∑ j : Fin 8192, f j := by
  have h : (∑ j : Fin (2048 + 2048 + 2048 + 2048), f j)
      = ((((∑ q : Fin 2048, f ⟨q.val, by omega⟩) + ∑ q : Fin 2048, f ⟨2048 + q.val, by omega⟩)
          + ∑ q : Fin 2048, f ⟨4096 + q.val, by omega⟩)
          + ∑ q : Fin 2048, f ⟨6144 + q.val, by omega⟩) := by
    rw [Fin.sum_univ_add, Fin.sum_univ_add, Fin.sum_univ_add]
    rfl
  unfold acc4
  rw [zero_add]
  exact h.symm

/-- The first contraction: features times weights. -/
def transformed (feat : Fin 8192 → Fin 128 → EReal) (W : Fin 128 → Fin 64 → EReal) (l : Fin 8192) (o : Fin 64) : EReal :=
  ∑ c : Fin 128, feat l c * W c o

/-- The blocked inverse-transform contraction, scaled on the right by the filter. -/
def scaled (winv : Fin 8192 → Fin 8192 → EReal) (feat : Fin 8192 → Fin 128 → EReal) (W : Fin 128 → Fin 64 → EReal) (filt : Fin 8192 → EReal) (j : Fin 8192) (o : Fin 64) : EReal :=
  acc4 (fun l => winv j l * transformed feat W l o) * filt j

/-- The blocked outer contraction of the scaled intermediate. -/
def kernelOut (wav winv : Fin 8192 → Fin 8192 → EReal) (feat : Fin 8192 → Fin 128 → EReal) (W : Fin 128 → Fin 64 → EReal) (filt : Fin 8192 → EReal) (r : Fin 8192) (o : Fin 64) : EReal :=
  acc4 (fun j => wav r j * scaled winv feat W filt j o)

/-- The reference: the filter scales the forward transform's columns on the right. -/
def refOut (wav winv : Fin 8192 → Fin 8192 → EReal) (feat : Fin 8192 → Fin 128 → EReal) (W : Fin 128 → Fin 64 → EReal) (filt : Fin 8192 → EReal) (r : Fin 8192) (o : Fin 64) : EReal :=
  ∑ j : Fin 8192, (wav r j * filt j) * ∑ l : Fin 8192, winv j l * transformed feat W l o

/-- Termwise, `a * (s * b) = (a * b) * s` in the commutative monoid `EReal`. -/
theorem kernelOut_eq_refOut (wav winv feat W filt r o) : kernelOut wav winv feat W filt r o = refOut wav winv feat W filt r o := by
  unfold kernelOut refOut scaled
  rw [acc4_eq_sum]
  refine Finset.sum_congr rfl fun j _ => ?_
  rw [acc4_eq_sum, mul_comm (∑ l : Fin 8192, winv j l * transformed feat W l o) (filt j), mul_assoc]

end

end Cert.Wavelet
-- ==== Proof.KI.Val0.lean ====
/-
  What the first pallas_call leaves in its result array, as one function of the arrays it reads (at the exact instance,
  where a float is an extended real).

  Row j = 1024·i + p of the result is produced at the grid points 4·i, …, 4·i + 3: the scratch, reset at 4·i, gathers
  Σ_q A(j, 2048·k + q) · T(2048·k + q, o) for k = 0, 1, 2, 3 in turn, with T(l, o) = Σ_c features(l, c) · weights(c, o);
  at 4·i + 3 that partial sum times the filter column's entry j is stored and written back. The blocks written back (one
  per i) tile the 8192 × 64 result, so the array ends at
      (((0 + B₀) + B₁) + B₂) + B₃) · column(j)
  for every (j, o).
-/
import proofs.«164439_j68341519613981_2_alg».proof.Proof.KI.R0Body
import proofs.«164439_j68341519613981_2_alg».proof.Proof.KI.Payloads
import proofs.«164439_j68341519613981_2_alg».proof.Proof.WaveletSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-! ## The arrays read, by literal coordinates -/

def aInv (c : Dev nD) (j l : Fin 8192) : EReal := (V c main_arg4 : S8192x8192.Idx → EReal) (ix2 j l)
def aFeat (c : Dev nD) (l : Fin 8192) (k : Fin 128) : EReal := (V c main_arg0 : S8192x128.Idx → EReal) (ix2 l k)
def aW (c : Dev nD) (k : Fin 128) (o : Fin 64) : EReal := (V c main_arg1 : S128x64.Idx → EReal) (ix2 k o)
def aCol (c : Dev nD) (j : Fin 8192) : EReal := (V c main_v0 : S8192x1.Idx → EReal) (ix2 j (0 : Fin 1))

/-- The result array of the first call. -/
def G0 (c : Dev nD) : S8192x64.Idx → EReal := fun x =>
  Cert.Wavelet.scaled (aInv V c) (aFeat V c) (aW V c) (aCol V c) ⟨(x 0).val, (x 0).isLt⟩ ⟨(x 1).val, (x 1).isLt⟩

/-! ## Which block each window is on -/

theorem idx0 : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0 :=
  (by decide +kernel : ∀ t : Fin grid0.N, _)

/-- An element of a block sits at block index × block size + its coordinate inside the block. -/
theorem blk0_0_at (c : Dev nD) (t : Fin cfg0.N) (p : Fin 1024) (q : Fin 2048) (j l : Fin 8192)
    (hj : j.val = 1024 * (t.val / 4) + p.val) (hl : l.val = 2048 * (t.val % 4) + q.val) :
    iblk0 V c 0 t (ix2 p q) = aInv V c j l := by
  show (V c main_arg4 : S8192x8192.Idx → EReal) (((cfg0.win 0).blk t).view.emb (ix2 p q)) = _
  unfold aInv
  refine congrArg _ (funext fun a => Fin.ext ?_)
  obtain ⟨e0, e1, -⟩ := idx0 t
  match a with
  | ⟨0, _⟩ => show win0_0.index t (0 : Fin 2) * 1024 + 1 * p.val = j.val; omega
  | ⟨1, _⟩ => show win0_0.index t (1 : Fin 2) * 2048 + 1 * q.val = l.val; omega

theorem blk0_1_at (c : Dev nD) (t : Fin cfg0.N) (q : Fin 2048) (k : Fin 128) (l : Fin 8192)
    (hl : l.val = 2048 * (t.val % 4) + q.val) :
    iblk0 V c 1 t (ix2 q k) = aFeat V c l k := by
  show (V c main_arg0 : S8192x128.Idx → EReal) (((cfg0.win 1).blk t).view.emb (ix2 q k)) = _
  unfold aFeat
  refine congrArg _ (funext fun a => Fin.ext ?_)
  obtain ⟨-, -, e2, e3, -⟩ := idx0 t
  match a with
  | ⟨0, _⟩ => show win0_1.index t (0 : Fin 2) * 2048 + 1 * q.val = l.val; omega
  | ⟨1, _⟩ => show win0_1.index t (1 : Fin 2) * 128 + 1 * k.val = k.val; omega

theorem blk0_2_at (c : Dev nD) (t : Fin cfg0.N) (k : Fin 128) (o : Fin 64) :
    iblk0 V c 2 t (ix2 k o) = aW V c k o := by
  show (V c main_arg1 : S128x64.Idx → EReal) (((cfg0.win 2).blk t).view.emb (ix2 k o)) = _
  unfold aW
  refine congrArg _ (funext fun a => Fin.ext ?_)
  obtain ⟨-, -, -, -, e4, e5, -⟩ := idx0 t
  match a with
  | ⟨0, _⟩ => show win0_2.index t (0 : Fin 2) * 128 + 1 * k.val = k.val; omega
  | ⟨1, _⟩ => show win0_2.index t (1 : Fin 2) * 64 + 1 * o.val = o.val; omega

theorem blk0_3_at (c : Dev nD) (t : Fin cfg0.N) (p : Fin 1024) (j : Fin 8192) (hj : j.val = 1024 * (t.val / 4) + p.val) :
    iblk0 V c 3 t (ix2 p (0 : Fin 1)) = aCol V c j := by
  show (V c main_v0 : S8192x1.Idx → EReal) (((cfg0.win 3).blk t).view.emb (ix2 p (0 : Fin 1))) = _
  unfold aCol
  refine congrArg _ (funext fun a => Fin.ext ?_)
  obtain ⟨-, -, -, -, -, -, e6, e7, -⟩ := idx0 t
  match a with
  | ⟨0, _⟩ => show win0_3.index t (0 : Fin 2) * 1024 + 1 * p.val = j.val; omega
  | ⟨1, _⟩ => show win0_3.index t (1 : Fin 2) * 1 + 1 * 0 = 0; omega

/-! ## The partial sum, entry by entry -/

/-- The point's blocks, at their literal vector types. -/
abbrev bA (c : Dev nD) (t : Fin cfg0.N) : Vec Ideal S1024x2048 .f32 := iblk0 V c 0 t
abbrev bF (c : Dev nD) (t : Fin cfg0.N) : Vec Ideal S2048x128 .f32 := iblk0 V c 1 t
abbrev bW (c : Dev nD) (t : Fin cfg0.N) : Vec Ideal S128x64 .f32 := iblk0 V c 2 t
abbrev bC (c : Dev nD) (t : Fin cfg0.N) : Vec Ideal S1024x1 .f32 := iblk0 V c 3 t

/-- The product of the point's blocks, at an entry: the terms 2048·k, …, 2048·k + 2047 of row j's contraction. -/
theorem prod0_at (c : Dev nD) (t : Fin cfg0.N) (p : Fin 1024) (o : Fin 64) (j : Fin 8192) (l : Fin 2048 → Fin 8192)
    (hj : j.val = 1024 * (t.val / 4) + p.val) (hl : ∀ q, (l q).val = 2048 * (t.val % 4) + q.val) :
    (∑ q : Fin 2048, bA V c t (ix2 p q) * ∑ k : Fin 128, bF V c t (ix2 q k) * bW V c t (ix2 k o))
      = ∑ q : Fin 2048, aInv V c j (l q) * Cert.Wavelet.transformed (aFeat V c) (aW V c) (l q) o := by
  refine Finset.sum_congr rfl fun q _ => ?_
  have e0 : bA V c t (ix2 p q) = aInv V c j (l q) := blk0_0_at V c t p q j (l q) hj (hl q)
  have e1 : (∑ k : Fin 128, bF V c t (ix2 q k) * bW V c t (ix2 k o))
      = Cert.Wavelet.transformed (aFeat V c) (aW V c) (l q) o := by
    unfold Cert.Wavelet.transformed
    refine Finset.sum_congr rfl fun k _ => ?_
    have f1 : bF V c t (ix2 q k) = aFeat V c (l q) k := blk0_1_at V c t q k (l q) (hl q)
    have f2 : bW V c t (ix2 k o) = aW V c k o := blk0_2_at V c t k o
    rw [f1, f2]
  rw [e0, e1]

theorem accAt0_congr (c : Dev nD) (n n' : ℕ) (hn : n < cfg0.N) (hn' : n' < cfg0.N) (e : n = n') :
    accAt0 V c n hn = accAt0 V c n' hn' := by subst e; rfl

/-- Where k ≠ 0: the entry is the entry the point before left plus the point's product. -/
theorem acc0_step_at (c : Dev nD) (t t' : Fin cfg0.N) (h0 : ¬t.val % 4 = 0) (ht' : t'.val = t.val - 1) (p : Fin 1024) (o : Fin 64) :
    accAt0 V c t.val t.isLt (ix2 p o)
      = accAt0 V c t'.val t'.isLt (ix2 p o)
        + ∑ q : Fin 2048, bA V c t (ix2 p q) * ∑ k : Fin 128, bF V c t (ix2 q k) * bW V c t (ix2 k o) := by
  rw [accAt0_step V c t h0, accAt0_congr V c (t.val - 1) t'.val _ t'.isLt ht'.symm]
  exact Cert.KernelIdeal.Pay.pay2_at (iblk0 V c 1 t) (iblk0 V c 2 t) (iblk0 V c 0 t) (accAt0 V c t'.val t'.isLt) p o

/-- Where k = 0: zero plus the point's product. -/
theorem acc0_reset_at (c : Dev nD) (t : Fin cfg0.N) (h0 : t.val % 4 = 0) (p : Fin 1024) (o : Fin 64) :
    accAt0 V c t.val t.isLt (ix2 p o)
      = 0 + ∑ q : Fin 2048, bA V c t (ix2 p q) * ∑ k : Fin 128, bF V c t (ix2 q k) * bW V c t (ix2 k o) := by
  rw [accAt0_reset V c t h0]
  refine (Cert.KernelIdeal.Pay.pay2_at (iblk0 V c 1 t) (iblk0 V c 2 t) (iblk0 V c 0 t) (k0_pay1 (F := Ideal)) p o).trans ?_
  rw [Cert.KernelIdeal.Pay.pay1_at]

/-- At k = 3 the scratch holds, at row p of block i, the whole contraction of row 1024·i + p accumulated in four blocks. -/
theorem acc0_last_at (c : Dev nD) (t : Fin cfg0.N) (h3 : t.val % 4 = 3) (p : Fin 1024) (o : Fin 64) (j : Fin 8192)
    (hj : j.val = 1024 * (t.val / 4) + p.val) :
    accAt0 V c t.val t.isLt (ix2 p o)
      = Cert.Wavelet.acc4 (fun l => aInv V c j l * Cert.Wavelet.transformed (aFeat V c) (aW V c) l o) := by
  have hN : t.val < 32 := lt_of_lt_of_eq t.isLt (show cfg0.N = 32 from N_0)
  have hN' : cfg0.N = 32 := N_0
  let t2 : Fin cfg0.N := ⟨t.val - 1, by omega⟩
  let t1 : Fin cfg0.N := ⟨t.val - 2, by omega⟩
  let t0 : Fin cfg0.N := ⟨t.val - 3, by omega⟩
  rw [acc0_step_at V c t t2 (by omega) rfl p o,
    acc0_step_at V c t2 t1 (by show ¬(t.val - 1) % 4 = 0; omega) (by show t.val - 2 = t.val - 1 - 1; omega) p o,
    acc0_step_at V c t1 t0 (by show ¬(t.val - 2) % 4 = 0; omega) (by show t.val - 3 = t.val - 2 - 1; omega) p o,
    acc0_reset_at V c t0 (by show (t.val - 3) % 4 = 0; omega) p o]
  rw [prod0_at V c t p o j (fun q => ⟨6144 + q.val, by omega⟩) hj (fun q => by show 6144 + q.val = 2048 * (t.val % 4) + q.val; omega),
    prod0_at V c t2 p o j (fun q => ⟨4096 + q.val, by omega⟩) (by show j.val = 1024 * ((t.val - 1) / 4) + p.val; omega)
      (fun q => by show 4096 + q.val = 2048 * ((t.val - 1) % 4) + q.val; omega),
    prod0_at V c t1 p o j (fun q => ⟨2048 + q.val, by omega⟩) (by show j.val = 1024 * ((t.val - 2) / 4) + p.val; omega)
      (fun q => by show 2048 + q.val = 2048 * ((t.val - 2) % 4) + q.val; omega),
    prod0_at V c t0 p o j (fun q => ⟨q.val, by omega⟩) (by show j.val = 1024 * ((t.val - 3) / 4) + p.val; omega)
      (fun q => by show q.val = 2048 * ((t.val - 3) % 4) + q.val; omega)]
  rfl

/-! ## The block written back, the cover, the array -/

/-- What a point with k = 3 writes back is its block of `G0`. -/
theorem flushed0_eq (c : Dev nD) (t : Fin cfg0.N) (hf : (cfg0.win 4).flush t = true) :
    (dat0 V c).flushed 4 t = ((cfg0.win 4).blk t).view.read (Elt Ideal) (G0 V c) := by
  have h3 : t.val % 4 = 3 := (flush0_4 t).mp hf
  have hN : t.val < 32 := lt_of_lt_of_eq t.isLt (show cfg0.N = 32 from N_0)
  show (cfg0.win 4).cut (grid0.coords t) ((dat0 V c).after 4 t) = _
  rw [after0_4]
  funext y
  obtain ⟨p, o, rfl⟩ : ∃ (p : Fin 1024) (o : Fin 64), y = ix2 p o := ⟨y 0, y 1, eq_ix2 y⟩
  show k0_pay3 (F := Ideal) (accAt0 V c t.val t.isLt) (iblk0 V c 3 t) (ix2 p o) = G0 V c (((cfg0.win 4).blk t).view.emb (ix2 p o))
  have hj : (⟨1024 * (t.val / 4) + p.val, by omega⟩ : Fin 8192).val = 1024 * (t.val / 4) + p.val := rfl
  rw [Cert.KernelIdeal.Pay.pay3_at, acc0_last_at V c t h3 p o ⟨1024 * (t.val / 4) + p.val, by omega⟩ hj,
    blk0_3_at V c t p ⟨1024 * (t.val / 4) + p.val, by omega⟩ hj]
  unfold G0 Cert.Wavelet.scaled
  obtain ⟨-, -, -, -, -, -, -, -, e8, e9⟩ := idx0 t
  have ea : ((((cfg0.win 4).blk t).view.emb (ix2 p o)) 0).val = 1024 * (t.val / 4) + p.val := by
    show win0_4.index t (0 : Fin 2) * 1024 + 1 * p.val = _; omega
  have eb : ((((cfg0.win 4).blk t).view.emb (ix2 p o)) 1).val = o.val := by
    show win0_4.index t (1 : Fin 2) * 64 + 1 * o.val = _; omega
  have e1 : (⟨((((cfg0.win 4).blk t).view.emb (ix2 p o)) 0).val, ((((cfg0.win 4).blk t).view.emb (ix2 p o)) 0).isLt⟩ : Fin 8192)
      = ⟨1024 * (t.val / 4) + p.val, by omega⟩ := Fin.ext ea
  have e2 : (⟨((((cfg0.win 4).blk t).view.emb (ix2 p o)) 1).val, ((((cfg0.win 4).blk t).view.emb (ix2 p o)) 1).isLt⟩ : Fin 64) = o := Fin.ext eb
  rw [e1, e2]

/-- An index of the result is in a point's block iff each coordinate is in the block's range on its axis. -/
theorem mem_blk0 (t : Fin cfg0.N) (x : S8192x64.Idx) :
    x ∈ ((cfg0.win 4).blk t).view.set ↔ ∀ a : Fin 2, win0_4.index t a * S1024x64.size a ≤ (x a).val ∧ (x a).val < win0_4.index t a * S1024x64.size a + S1024x64.size a := by
  show x ∈ ((View.whole main_v1).slice (win0_4.rect t)).set ↔ _
  rw [View.set_slice_whole, Rect.mem_set_unit]
  exact Iff.rfl

/-- Every index of the result lies in the block some point with k = 3 writes back: row r is in block r / 1024. -/
theorem cover0 (x : S8192x64.Idx) : ∃ t : Fin cfg0.N, (cfg0.win 4).flush t = true ∧ x ∈ ((cfg0.win 4).blk t).view.set := by
  have hx0 : (x 0).val < 8192 := (x 0).isLt
  have hx1 : (x 1).val < 64 := (x 1).isLt
  have hN' : cfg0.N = 32 := N_0
  refine ⟨⟨4 * ((x 0).val / 1024) + 3, by omega⟩, (flush0_4 _).mpr (by show (4 * ((x 0).val / 1024) + 3) % 4 = 3; omega), ?_⟩
  rw [mem_blk0]
  obtain ⟨-, -, -, -, -, -, -, -, e8, e9⟩ := idx0 ⟨4 * ((x 0).val / 1024) + 3, by omega⟩
  intro a
  match a with
  | ⟨0, _⟩ =>
    show win0_4.index _ (0 : Fin 2) * 1024 ≤ (x 0).val ∧ (x 0).val < win0_4.index _ (0 : Fin 2) * 1024 + 1024
    rw [e8]; show (4 * ((x 0).val / 1024) + 3) / 4 * 1024 ≤ (x 0).val ∧ (x 0).val < (4 * ((x 0).val / 1024) + 3) / 4 * 1024 + 1024; omega
  | ⟨1, _⟩ =>
    show win0_4.index _ (1 : Fin 2) * 64 ≤ (x 1).val ∧ (x 1).val < win0_4.index _ (1 : Fin 2) * 64 + 64
    rw [e9]; omega

/-- The first call's result array after its last write-back. -/
theorem final0 (c : Dev nD) : (dat0 V c).arrAt 4 cfg0.N = G0 V c :=
  (dat0 V c).arrAt_eq_of_cover 4 (G0 V c) (fun t hf => flushed0_eq V c t hf) cover0

end Cert.KernelIdeal.Hand

end
-- ==== Proof.KI.Val1.lean ====
/-
  What the second pallas_call leaves in its result array, as one function of the arrays it reads (at the exact
  instance).

  Row r = 1024·i + p of the result is produced at the grid points 4·i, …, 4·i + 3: the scratch, reset at 4·i, gathers
  Σ_q M(r, 2048·k + q) · U(2048·k + q, o) for k = 0, 1, 2, 3 in turn (M the big matrix of this call, U the first call's
  result as this call finds it); at 4·i + 3 the scratch is copied to the result block and written back. The blocks
  written back tile the 8192 × 64 result, so the array ends at ((0 + C₀) + C₁) + C₂) + C₃ for every (r, o).
-/
import proofs.«164439_j68341519613981_2_alg».proof.Proof.KI.R1Body
import proofs.«164439_j68341519613981_2_alg».proof.Proof.KI.Payloads
import proofs.«164439_j68341519613981_2_alg».proof.Proof.WaveletSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-! ## The arrays read, by literal coordinates -/

def aWav (c : Dev nD) (r l : Fin 8192) : EReal := (V c main_arg3 : S8192x8192.Idx → EReal) (ix2 r l)
def aU (c : Dev nD) (l : Fin 8192) (o : Fin 64) : EReal := (V c main_v1 : S8192x64.Idx → EReal) (ix2 l o)

/-- The result array of the second call. -/
def G1 (c : Dev nD) : S8192x64.Idx → EReal := fun x =>
  Cert.Wavelet.acc4 (fun l => aWav V c ⟨(x 0).val, (x 0).isLt⟩ l * aU V c l ⟨(x 1).val, (x 1).isLt⟩)

/-! ## Which block each window is on -/

theorem idx1 : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

theorem blk1_0_at (c : Dev nD) (t : Fin cfg1.N) (p : Fin 1024) (q : Fin 2048) (r l : Fin 8192)
    (hr : r.val = 1024 * (t.val / 4) + p.val) (hl : l.val = 2048 * (t.val % 4) + q.val) :
    iblk1 V c 0 t (ix2 p q) = aWav V c r l := by
  show (V c main_arg3 : S8192x8192.Idx → EReal) (((cfg1.win 0).blk t).view.emb (ix2 p q)) = _
  unfold aWav
  refine congrArg _ (funext fun a => Fin.ext ?_)
  obtain ⟨e0, e1, -⟩ := idx1 t
  match a with
  | ⟨0, _⟩ => show win1_0.index t (0 : Fin 2) * 1024 + 1 * p.val = r.val; omega
  | ⟨1, _⟩ => show win1_0.index t (1 : Fin 2) * 2048 + 1 * q.val = l.val; omega

theorem blk1_1_at (c : Dev nD) (t : Fin cfg1.N) (q : Fin 2048) (o : Fin 64) (l : Fin 8192)
    (hl : l.val = 2048 * (t.val % 4) + q.val) :
    iblk1 V c 1 t (ix2 q o) = aU V c l o := by
  show (V c main_v1 : S8192x64.Idx → EReal) (((cfg1.win 1).blk t).view.emb (ix2 q o)) = _
  unfold aU
  refine congrArg _ (funext fun a => Fin.ext ?_)
  obtain ⟨-, -, e2, e3, -⟩ := idx1 t
  match a with
  | ⟨0, _⟩ => show win1_1.index t (0 : Fin 2) * 2048 + 1 * q.val = l.val; omega
  | ⟨1, _⟩ => show win1_1.index t (1 : Fin 2) * 64 + 1 * o.val = o.val; omega

/-! ## The partial sum, entry by entry -/

abbrev bM (c : Dev nD) (t : Fin cfg1.N) : Vec Ideal S1024x2048 .f32 := iblk1 V c 0 t
abbrev bU (c : Dev nD) (t : Fin cfg1.N) : Vec Ideal S2048x64 .f32 := iblk1 V c 1 t

theorem prod1_at (c : Dev nD) (t : Fin cfg1.N) (p : Fin 1024) (o : Fin 64) (r : Fin 8192) (l : Fin 2048 → Fin 8192)
    (hr : r.val = 1024 * (t.val / 4) + p.val) (hl : ∀ q, (l q).val = 2048 * (t.val % 4) + q.val) :
    (∑ q : Fin 2048, bM V c t (ix2 p q) * bU V c t (ix2 q o))
      = ∑ q : Fin 2048, aWav V c r (l q) * aU V c (l q) o := by
  refine Finset.sum_congr rfl fun q _ => ?_
  have e0 : bM V c t (ix2 p q) = aWav V c r (l q) := blk1_0_at V c t p q r (l q) hr (hl q)
  have e1 : bU V c t (ix2 q o) = aU V c (l q) o := blk1_1_at V c t q o (l q) (hl q)
  rw [e0, e1]

theorem accAt1_congr (c : Dev nD) (n n' : ℕ) (hn : n < cfg1.N) (hn' : n' < cfg1.N) (e : n = n') :
    accAt1 V c n hn = accAt1 V c n' hn' := by subst e; rfl

theorem acc1_step_at (c : Dev nD) (t t' : Fin cfg1.N) (h0 : ¬t.val % 4 = 0) (ht' : t'.val = t.val - 1) (p : Fin 1024) (o : Fin 64) :
    accAt1 V c t.val t.isLt (ix2 p o)
      = accAt1 V c t'.val t'.isLt (ix2 p o) + ∑ q : Fin 2048, bM V c t (ix2 p q) * bU V c t (ix2 q o) := by
  rw [accAt1_step V c t h0, accAt1_congr V c (t.val - 1) t'.val _ t'.isLt ht'.symm]
  exact Cert.KernelIdeal.Pay.pay2'_at (iblk1 V c 0 t) (iblk1 V c 1 t) (accAt1 V c t'.val t'.isLt) p o

theorem acc1_reset_at (c : Dev nD) (t : Fin cfg1.N) (h0 : t.val % 4 = 0) (p : Fin 1024) (o : Fin 64) :
    accAt1 V c t.val t.isLt (ix2 p o) = 0 + ∑ q : Fin 2048, bM V c t (ix2 p q) * bU V c t (ix2 q o) := by
  rw [accAt1_reset V c t h0]
  refine (Cert.KernelIdeal.Pay.pay2'_at (iblk1 V c 0 t) (iblk1 V c 1 t) (k1_pay1 (F := Ideal)) p o).trans ?_
  rw [Cert.KernelIdeal.Pay.pay1'_at]

theorem acc1_last_at (c : Dev nD) (t : Fin cfg1.N) (h3 : t.val % 4 = 3) (p : Fin 1024) (o : Fin 64) (r : Fin 8192)
    (hr : r.val = 1024 * (t.val / 4) + p.val) :
    accAt1 V c t.val t.isLt (ix2 p o) = Cert.Wavelet.acc4 (fun l => aWav V c r l * aU V c l o) := by
  have hN : t.val < 32 := lt_of_lt_of_eq t.isLt (show cfg1.N = 32 from N_1)
  have hN' : cfg1.N = 32 := N_1
  let t2 : Fin cfg1.N := ⟨t.val - 1, by omega⟩
  let t1 : Fin cfg1.N := ⟨t.val - 2, by omega⟩
  let t0 : Fin cfg1.N := ⟨t.val - 3, by omega⟩
  rw [acc1_step_at V c t t2 (by omega) rfl p o,
    acc1_step_at V c t2 t1 (by show ¬(t.val - 1) % 4 = 0; omega) (by show t.val - 2 = t.val - 1 - 1; omega) p o,
    acc1_step_at V c t1 t0 (by show ¬(t.val - 2) % 4 = 0; omega) (by show t.val - 3 = t.val - 2 - 1; omega) p o,
    acc1_reset_at V c t0 (by show (t.val - 3) % 4 = 0; omega) p o]
  rw [prod1_at V c t p o r (fun q => ⟨6144 + q.val, by omega⟩) hr (fun q => by show 6144 + q.val = 2048 * (t.val % 4) + q.val; omega),
    prod1_at V c t2 p o r (fun q => ⟨4096 + q.val, by omega⟩) (by show r.val = 1024 * ((t.val - 1) / 4) + p.val; omega)
      (fun q => by show 4096 + q.val = 2048 * ((t.val - 1) % 4) + q.val; omega),
    prod1_at V c t1 p o r (fun q => ⟨2048 + q.val, by omega⟩) (by show r.val = 1024 * ((t.val - 2) / 4) + p.val; omega)
      (fun q => by show 2048 + q.val = 2048 * ((t.val - 2) % 4) + q.val; omega),
    prod1_at V c t0 p o r (fun q => ⟨q.val, by omega⟩) (by show r.val = 1024 * ((t.val - 3) / 4) + p.val; omega)
      (fun q => by show q.val = 2048 * ((t.val - 3) % 4) + q.val; omega)]
  rfl

/-! ## The block written back, the cover, the array -/

theorem flushed1_eq (c : Dev nD) (t : Fin cfg1.N) (hf : (cfg1.win 2).flush t = true) :
    (dat1 V c).flushed 2 t = ((cfg1.win 2).blk t).view.read (Elt Ideal) (G1 V c) := by
  have h3 : t.val % 4 = 3 := (flush1_2 t).mp hf
  have hN : t.val < 32 := lt_of_lt_of_eq t.isLt (show cfg1.N = 32 from N_1)
  show (cfg1.win 2).cut (grid1.coords t) ((dat1 V c).after 2 t) = _
  rw [after1_2]
  funext y
  obtain ⟨p, o, rfl⟩ : ∃ (p : Fin 1024) (o : Fin 64), y = ix2 p o := ⟨y 0, y 1, eq_ix2 y⟩
  show accAt1 V c t.val t.isLt (ix2 p o) = G1 V c (((cfg1.win 2).blk t).view.emb (ix2 p o))
  have hr : (⟨1024 * (t.val / 4) + p.val, by omega⟩ : Fin 8192).val = 1024 * (t.val / 4) + p.val := rfl
  rw [acc1_last_at V c t h3 p o ⟨1024 * (t.val / 4) + p.val, by omega⟩ hr]
  unfold G1
  obtain ⟨-, -, -, -, e4, e5⟩ := idx1 t
  have ea : ((((cfg1.win 2).blk t).view.emb (ix2 p o)) 0).val = 1024 * (t.val / 4) + p.val := by
    show win1_2.index t (0 : Fin 2) * 1024 + 1 * p.val = _; omega
  have eb : ((((cfg1.win 2).blk t).view.emb (ix2 p o)) 1).val = o.val := by
    show win1_2.index t (1 : Fin 2) * 64 + 1 * o.val = _; omega
  have e1 : (⟨((((cfg1.win 2).blk t).view.emb (ix2 p o)) 0).val, ((((cfg1.win 2).blk t).view.emb (ix2 p o)) 0).isLt⟩ : Fin 8192)
      = ⟨1024 * (t.val / 4) + p.val, by omega⟩ := Fin.ext ea
  have e2 : (⟨((((cfg1.win 2).blk t).view.emb (ix2 p o)) 1).val, ((((cfg1.win 2).blk t).view.emb (ix2 p o)) 1).isLt⟩ : Fin 64) = o := Fin.ext eb
  rw [e1, e2]

theorem mem_blk1 (t : Fin cfg1.N) (x : S8192x64.Idx) :
    x ∈ ((cfg1.win 2).blk t).view.set ↔ ∀ a : Fin 2, win1_2.index t a * S1024x64.size a ≤ (x a).val ∧ (x a).val < win1_2.index t a * S1024x64.size a + S1024x64.size a := by
  show x ∈ ((View.whole main_v2).slice (win1_2.rect t)).set ↔ _
  rw [View.set_slice_whole, Rect.mem_set_unit]
  exact Iff.rfl

theorem cover1 (x : S8192x64.Idx) : ∃ t : Fin cfg1.N, (cfg1.win 2).flush t = true ∧ x ∈ ((cfg1.win 2).blk t).view.set := by
  have hx0 : (x 0).val < 8192 := (x 0).isLt
  have hx1 : (x 1).val < 64 := (x 1).isLt
  have hN' : cfg1.N = 32 := N_1
  refine ⟨⟨4 * ((x 0).val / 1024) + 3, by omega⟩, (flush1_2 _).mpr (by show (4 * ((x 0).val / 1024) + 3) % 4 = 3; omega), ?_⟩
  rw [mem_blk1]
  obtain ⟨-, -, -, -, e4, e5⟩ := idx1 ⟨4 * ((x 0).val / 1024) + 3, by omega⟩
  intro a
  match a with
  | ⟨0, _⟩ =>
    show win1_2.index _ (0 : Fin 2) * 1024 ≤ (x 0).val ∧ (x 0).val < win1_2.index _ (0 : Fin 2) * 1024 + 1024
    rw [e4]; show (4 * ((x 0).val / 1024) + 3) / 4 * 1024 ≤ (x 0).val ∧ (x 0).val < (4 * ((x 0).val / 1024) + 3) / 4 * 1024 + 1024; omega
  | ⟨1, _⟩ =>
    show win1_2.index _ (1 : Fin 2) * 64 ≤ (x 1).val ∧ (x 1).val < win1_2.index _ (1 : Fin 2) * 64 + 64
    rw [e5]; omega

/-- The second call's result array after its last write-back. -/
theorem final1 (c : Dev nD) : (dat1 V c).arrAt 2 cfg1.N = G1 V c :=
  (dat1 V c).arrAt_eq_of_cover 2 (G1 V c) (fun t hf => flushed1_eq V c t hf) cover1

end Cert.KernelIdeal.Hand

end
-- ==== Proof.RefValue.lean ====
import proofs.«164439_j68341519613981_2_alg».proof.Proof.Gen.ReferenceIdeal.Read
import proofs.«164439_j68341519613981_2_alg».proof.Proof.WaveletSum
import Idealize.ShloMosaic.Lib.ValueIdx

/-!
# The reference program read at an index

The reference computes, for a row `r` and an output column `o`,
`∑ j, (wav r j * filt j) * ∑ l, winv j l * ∑ c, feat l c * W c o`:
a contraction of features with weights, a contraction with the inverse transform,
the forward transform scaled columnwise by the (broadcast) filter, and the final contraction.
Each generated `_apply` lemma reads one operation at an index; the index functions it uses
are identified with literal coordinates, and the elementwise product is `*` on `EReal`.
-/

noncomputable section

namespace Cert.ReferenceIdeal.RefValue

open Idealize.ShloMosaic Idealize.ShloMosaic.ValueIdx Cert.ReferenceIdeal
open scoped BigOperators

/-- The arrays as functions of literal coordinates. -/
def mat2 {A B : Nat} (x : (⟨2, ![A, B]⟩ : Shape).Idx → EReal) (a : Fin A) (b : Fin B) : EReal := x (ix2 a b)
def vec1 {A : Nat} (x : (⟨1, ![A]⟩ : Shape).Idx → EReal) (a : Fin A) : EReal := x (ix1 a)

/-! ## The index functions of the generated lemmas, at literal coordinates -/

theorem lidx_v5 (r : Fin 8192) (o : Fin 64) (k : Fin 8192) :
    Read.lidx_main_v5 (ix2 r o) k = ix2 r k :=
  funext fun a => match a with | ⟨0, _⟩ => rfl | ⟨1, _⟩ => rfl

theorem ridx_v5 (r : Fin 8192) (o : Fin 64) (k : Fin 8192) :
    Read.ridx_main_v5 (ix2 r o) k = ix2 k o :=
  funext fun a => match a with | ⟨0, _⟩ => rfl | ⟨1, _⟩ => rfl

theorem lidx_v1 (j : Fin 8192) (o : Fin 64) (l : Fin 8192) :
    Read.lidx_main_v1 (ix2 j o) l = ix2 j l :=
  funext fun a => match a with | ⟨0, _⟩ => rfl | ⟨1, _⟩ => rfl

theorem ridx_v1 (j : Fin 8192) (o : Fin 64) (l : Fin 8192) :
    Read.ridx_main_v1 (ix2 j o) l = ix2 l o :=
  funext fun a => match a with | ⟨0, _⟩ => rfl | ⟨1, _⟩ => rfl

theorem lidx_v0 (l : Fin 8192) (o : Fin 64) (c : Fin 128) :
    Read.lidx_main_v0 (ix2 l o) c = ix2 l c :=
  funext fun a => match a with | ⟨0, _⟩ => rfl | ⟨1, _⟩ => rfl

theorem ridx_v0 (l : Fin 8192) (o : Fin 64) (c : Fin 128) :
    Read.ridx_main_v0 (ix2 l o) c = ix2 c o :=
  funext fun a => match a with | ⟨0, _⟩ => rfl | ⟨1, _⟩ => rfl

/-- The filter broadcast to a row and then to the full matrix is read at the column coordinate. -/
theorem idx_v2_v3 (r j : Fin 8192) :
    Read.idx_main_v2 (Read.idx_main_v3 (ix2 r j)) = ix1 j :=
  funext fun a => match a with | ⟨0, _⟩ => rfl

/-! ## The operations at literal coordinates -/

/-- The first contraction: features times weights. -/
theorem v0_at (x0 : (⟨S8192x128, .f32⟩ : BufTy).Contents (Elt Ideal)) (x1 : (⟨S128x64, .f32⟩ : BufTy).Contents (Elt Ideal))
    (l : Fin 8192) (o : Fin 64) :
    Read.val_main_v0 (F := Ideal) x0 x1 (ix2 l o) = Cert.Wavelet.transformed (mat2 x0) (mat2 x1) l o := by
  rw [Read.val_main_v0_apply]
  unfold Cert.Wavelet.transformed mat2
  refine Finset.sum_congr rfl fun c _ => ?_
  rw [lidx_v0, ridx_v0]

/-- The second contraction: the inverse transform applied to the first. -/
theorem v1_at (x0 : (⟨S8192x128, .f32⟩ : BufTy).Contents (Elt Ideal)) (x1 : (⟨S128x64, .f32⟩ : BufTy).Contents (Elt Ideal))
    (x4 : (⟨S8192x8192, .f32⟩ : BufTy).Contents (Elt Ideal)) (j : Fin 8192) (o : Fin 64) :
    Read.val_main_v1 (F := Ideal) x0 x1 x4 (ix2 j o)
      = ∑ l : Fin 8192, mat2 x4 j l * Cert.Wavelet.transformed (mat2 x0) (mat2 x1) l o := by
  rw [Read.val_main_v1_apply]
  refine Finset.sum_congr rfl fun l _ => ?_
  rw [lidx_v1, ridx_v1, v0_at]
  rfl

/-- The forward transform scaled columnwise by the filter. -/
theorem v4_at (x2 : (⟨S8192, .f32⟩ : BufTy).Contents (Elt Ideal)) (x3 : (⟨S8192x8192, .f32⟩ : BufTy).Contents (Elt Ideal))
    (r j : Fin 8192) :
    Read.val_main_v4 (F := Ideal) x2 x3 (ix2 r j) = mat2 x3 r j * vec1 x2 j := by
  rw [Read.val_main_v4_apply, Read.val_main_v3_apply, Read.val_main_v2_apply, idx_v2_v3, Ideal.mulf_def]
  rfl

/-- The reference read at a row and an output column. -/
theorem ref_apply (x0 : (⟨S8192x128, .f32⟩ : BufTy).Contents (Elt Ideal)) (x1 : (⟨S128x64, .f32⟩ : BufTy).Contents (Elt Ideal)) (x2 : (⟨S8192, .f32⟩ : BufTy).Contents (Elt Ideal)) (x3 x4 : (⟨S8192x8192, .f32⟩ : BufTy).Contents (Elt Ideal)) (r : Fin 8192) (o : Fin 64) :
    Cert.ReferenceIdeal.Read.val_main_v5 (F := Ideal) x0 x1 x2 x3 x4 (ix2 r o)
      = Cert.Wavelet.refOut (mat2 x3) (mat2 x4) (mat2 x0) (mat2 x1) (vec1 x2) r o := by
  rw [Read.val_main_v5_apply]
  unfold Cert.Wavelet.refOut
  refine Finset.sum_congr rfl fun j _ => ?_
  rw [lidx_v5, ridx_v5, v4_at, v1_at]

end Cert.ReferenceIdeal.RefValue

end
-- ==== Proof.KI.Value.lean ====
/-
  The idealized kernel program's result, entry by entry, from the launch memory.

  The first call reads the second big matrix, the features, the weights and the filter reshaped into a column (entry j
  of the column is entry j of the filter), none of which the reshape changes; the second call reads the first big
  matrix, unchanged so far, and the first call's result. So entry (r, o) of the program's result is
      acc4 (fun j => wav(r, j) · (acc4 (fun l => winv(j, l) · T(l, o)) · filt(j))),
  each contraction accumulated from zero in four blocks of 2048 — `Cert.Wavelet.kernelOut` of the five arguments.
-/
import proofs.«164439_j68341519613981_2_alg».proof.Proof.KI.Segs
import proofs.«164439_j68341519613981_2_alg».proof.Proof.KI.Val0
import proofs.«164439_j68341519613981_2_alg».proof.Proof.KI.Val1
import proofs.«164439_j68341519613981_2_alg».proof.Proof.RefValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.ReferenceIdeal.RefValue (mat2 vec1)
open scoped BigOperators

variable (m : (ℓ : Loc nD τ sig) → Buf (Elt Ideal) ℓ) (ρ : Dev nD → PrngReg)

/-! ## The first call's entry contents are the launch memory's, the column the reshaped filter -/

theorem V1_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide))) : W1 m ρ c (Proc.devRef .tc main_arg0) = W0 m ρ c (Proc.devRef .tc main_arg0))
theorem V1_arg1 (c : Dev nD) : V1 m ρ c main_arg1 = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide))) : W1 m ρ c (Proc.devRef .tc main_arg1) = W0 m ρ c (Proc.devRef .tc main_arg1))
theorem V1_arg4 (c : Dev nD) : V1 m ρ c main_arg4 = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide))) : W1 m ρ c (Proc.devRef .tc main_arg4) = W0 m ρ c (Proc.devRef .tc main_arg4))
theorem V2_arg3 (c : Dev nD) : V2 m ρ c main_arg3 = m ((c : Thread nD τ).loc main_arg3) :=
  (W2_of_ne m ρ c main_arg3 (by decide)).trans
    (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide))) : W1 m ρ c (Proc.devRef .tc main_arg3) = W0 m ρ c (Proc.devRef .tc main_arg3))

/-- The column the first call reads is the filter reshaped. -/
theorem V1_v0 (c : Dev nD) :
    (V1 m ρ c main_v0 : S8192x1.Idx → EReal) = shapeCast S8192x1 (m ((c : Thread nD τ).loc main_arg2)) shapeCasts_S8192_S8192x1 := by
  show StableHlo.after hostOps0 (W0 m ρ c) (Proc.devRef .tc main_v0) = _
  after_results
  rfl

theorem aInv_eq (c : Dev nD) : aInv (V1 m ρ) c = mat2 (m ((c : Thread nD τ).loc main_arg4)) :=
  funext fun j => funext fun l => congrFun (V1_arg4 m ρ c) (ix2 j l)
theorem aFeat_eq (c : Dev nD) : aFeat (V1 m ρ) c = mat2 (m ((c : Thread nD τ).loc main_arg0)) :=
  funext fun l => funext fun k => congrFun (V1_arg0 m ρ c) (ix2 l k)
theorem aW_eq (c : Dev nD) : aW (V1 m ρ) c = mat2 (m ((c : Thread nD τ).loc main_arg1)) :=
  funext fun k => funext fun o => congrFun (V1_arg1 m ρ c) (ix2 k o)
theorem aCol_eq (c : Dev nD) : aCol (V1 m ρ) c = vec1 (m ((c : Thread nD τ).loc main_arg2)) := by
  funext j
  unfold aCol vec1
  rw [V1_v0]
  exact shapeCast_apply _ _ (ix2 j (0 : Fin 1)) (ix1 j) (by
    rw [Shape.rowMajor_val_two, Shape.rowMajor_val_one]; show j.val = j.val * 1 + 0; omega)
theorem aWav_eq (c : Dev nD) : aWav (V2 m ρ) c = mat2 (m ((c : Thread nD τ).loc main_arg3)) :=
  funext fun r => funext fun l => congrFun (V2_arg3 m ρ c) (ix2 r l)

/-- What the second call finds in the first call's result array. -/
theorem aU_eq (c : Dev nD) (l : Fin 8192) (o : Fin 64) :
    aU (V2 m ρ) c l o
      = Cert.Wavelet.scaled (mat2 (m ((c : Thread nD τ).loc main_arg4))) (mat2 (m ((c : Thread nD τ).loc main_arg0)))
          (mat2 (m ((c : Thread nD τ).loc main_arg1))) (vec1 (m ((c : Thread nD τ).loc main_arg2))) l o := by
  have e : (V2 m ρ c main_v1 : S8192x64.Idx → EReal) = G0 (V1 m ρ) c :=
    (W2_arr m ρ c 4).trans (final0 (V1 m ρ) c)
  unfold aU
  rw [e]
  unfold G0
  rw [aInv_eq, aFeat_eq, aW_eq, aCol_eq]

/-! ## The result -/

/-- Entry (r, o) of the result buffer at the end of the run. -/
theorem out_at (c : Dev nD) (r : Fin 8192) (o : Fin 64) :
    (W3 m ρ c (Proc.devRef .tc main_v2) : S8192x64.Idx → EReal) (ix2 r o)
      = Cert.Wavelet.kernelOut (mat2 (m ((c : Thread nD τ).loc main_arg3))) (mat2 (m ((c : Thread nD τ).loc main_arg4)))
          (mat2 (m ((c : Thread nD τ).loc main_arg0))) (mat2 (m ((c : Thread nD τ).loc main_arg1)))
          (vec1 (m ((c : Thread nD τ).loc main_arg2))) r o := by
  have e : (W3 m ρ c (Proc.devRef .tc main_v2) : S8192x64.Idx → EReal) = G1 (V2 m ρ) c :=
    (W3_main_v2 m ρ c).trans (final1 (V2 m ρ) c)
  rw [e]
  unfold G1 Cert.Wavelet.kernelOut
  refine congrArg Cert.Wavelet.acc4 (funext fun l => ?_)
  show aWav (V2 m ρ) c r l * aU (V2 m ρ) c l o = _
  rw [aWav_eq, aU_eq]

/-- The run, read: the result buffer at the last boundary's contents, every argument as launched. -/
theorem value_run : θ_run defs (onTc (τ := τ) (main (F := Ideal))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v2 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run m ρ)

end Cert.KernelIdeal.Hand

end
-- ==== Proof.lean ====
/-
  A spectral graph convolution: out = (wavelets scaled column j by filt j) · (wavelets_inv · (features · weights)),
  over 8192 nodes, 128 input and 64 output channels.

  The kernel program computes it in two pallas_calls over an 8 × 4 grid each, after reshaping the filter into a
  column. The first accumulates, for each block of 1024 rows, wavelets_inv · (features · weights) over four blocks of
  2048 along the contraction in a scratch buffer, and at the last block stores the sum times the filter entry of the
  row; the second accumulates wavelets · (that result) the same way. The reference multiplies wavelets by the filter
  broadcast along rows and contracts. Over the extended reals every entry of either is a finite sum of products, and
        wav(r, j) · (S(j, o) · filt(j)) = (wav(r, j) · filt(j)) · S(j, o)
  by commutativity and associativity of the product alone, the four-block accumulation from zero being the whole sum:
  so the two results agree entry by entry, for all inputs (the precondition is not used by the value claim).

  The three frames: each program runs to the end, nothing faulting, and leaves its arguments as launched — for the two
  kernel programs from the run of the segments (the reshape, then each call entered from what the one before left, the
  call's body run at every grid point against its proof data), for the reference from its run as a sequence of host
  operations. The idealization rewrote no operation, so there is nothing to preserve.
-/
import proofs.«164439_j68341519613981_2_alg».proof.Defs
import proofs.«164439_j68341519613981_2_alg».proof.Proof.Gen.Kernel
import proofs.«164439_j68341519613981_2_alg».proof.Proof.Gen.KernelIdeal
import proofs.«164439_j68341519613981_2_alg».proof.Proof.Gen.ReferenceIdeal
import proofs.«164439_j68341519613981_2_alg».proof.Proof.Gen.Pre_finite_inputs
import proofs.«164439_j68341519613981_2_alg».proof.Proof.Gen.ReferenceIdeal.Run
import proofs.«164439_j68341519613981_2_alg».proof.Proof.Gen.ReferenceIdeal.Read
import proofs.«164439_j68341519613981_2_alg».proof.Proof.K.Segs
import proofs.«164439_j68341519613981_2_alg».proof.Proof.KI.Value
import proofs.«164439_j68341519613981_2_alg».proof.Proof.RefValue
import proofs.«164439_j68341519613981_2_alg».proof.Proof.WaveletSum
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the same result: entry (r, o) of the
    kernel's is the four-block accumulation `kernelOut`, of the reference's the plain double sum `refOut`, and the two
    are equal on the extended reals. -/
theorem algebraic : Cert.algebraic_KernelIdeal_ReferenceIdeal := by
  intro m ρ m' ρ' _ hagree
  refine ⟨fun c => Cert.KernelIdeal.Hand.W3 m ρ c (Proc.devRef .tc Cert.KernelIdeal.main_v2),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2.1, (hagree c).2.2.1, (hagree c).2.2.2.1,
    (hagree c).2.2.2.2]
  funext x
  obtain ⟨r, o, rfl⟩ : ∃ (r : Fin 8192) (o : Fin 64), x = ix2 r o := ⟨x 0, x 1, eq_ix2 x⟩
  rw [Cert.ReferenceIdeal.RefValue.ref_apply]
  exact ((Cert.KernelIdeal.Hand.out_at m ρ c r o).trans (Cert.Wavelet.kernelOut_eq_refOut _ _ _ _ _ r o)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
